-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v143)) (v2 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v143) = v1 c
          ∧ r.2.mem ((c.tc : Thread Cert.KernelIdeal.nD Cert.KernelIdeal.τ).loc Cert.KernelIdeal.main_v69_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S100000x128 .f32) (main_arg2 : FVec F S128x64 .f32) (main_arg3 : FVec F S64 .f32) (main_arg4 : FVec F S64x64 .f32) (main_arg5 : FVec F S64 .f32) (main_arg6 : FVec F S64x16 .f32) (main_arg7 : FVec F S16 .f32) (main_arg8 : IVec S2x1600000 32) (main_arg9 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1700000 : Shape := ⟨1, ![1700000]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1x16 : Shape := ⟨2, ![1, 16]⟩
abbrev S100000x16 : Shape := ⟨2, ![100000, 16]⟩
abbrev S10000x16 : Shape := ⟨2, ![10000, 16]⟩
abbrev S10000 : Shape := ⟨1, ![10000]⟩
abbrev S10000x1 : Shape := ⟨2, ![10000, 1]⟩
abbrev S1600000x1 : Shape := ⟨2, ![1600000, 1]⟩
abbrev S1600000x64 : Shape := ⟨2, ![1600000, 64]⟩
abbrev S1600000x128 : Shape := ⟨2, ![1600000, 128]⟩

abbrev nBuf : Space → Nat
  | .hbm => 205
  | .vmem => 24
  | .smem => 0
  | _ => 0

abbrev hbmTy0_0 (i : Nat) : BufTy := match i % 128 with
  | 0 => ⟨S100000x128, .f32⟩
  | 1 => ⟨S100000x128, .f32⟩
  | 2 => ⟨S128x64, .f32⟩
  | 3 => ⟨S64, .f32⟩
  | 4 => ⟨S64x64, .f32⟩
  | 5 => ⟨S64, .f32⟩
  | 6 => ⟨S64x16, .f32⟩
  | 7 => ⟨S16, .f32⟩
  | 8 => ⟨S2x1600000, .i32⟩
  | 9 => ⟨S2x1600000, .i32⟩
  | 10 => ⟨S1x1600000, .i32⟩
  | 11 => ⟨S1600000, .i32⟩
  | 12 => ⟨S1x1600000, .i32⟩
  | 13 => ⟨S1600000, .i32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S100000, .i32⟩
  | 21 => ⟨S1700000, .i32⟩
  | 22 => ⟨S1700000, .i32⟩
  | 23 => ⟨S_, .f32⟩
  | 24 => ⟨S100000, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x64, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x64, .f32⟩
  | 68 => ⟨S1700000x1, .f32⟩
  | 69 => ⟨S1700000x64, .f32⟩
  | 70 => ⟨S1700000x64, .f32⟩
  | 71 => ⟨S_, .f32⟩
  | 72 => ⟨S100000x64, .f32⟩
  | 73 => ⟨S1700000x1, .i32⟩
  | 74 => ⟨S100000x64, .f32⟩
  | 75 => ⟨S1x64, .f32⟩
  | 76 => ⟨S100000x64, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x64, .f32⟩
  | 87 => ⟨S1700000x1, .f32⟩
  | 88 => ⟨S1700000x64, .f32⟩
  | 89 => ⟨S1700000x64, .f32⟩
  | 90 => ⟨S_, .f32⟩
  | 91 => ⟨S100000x64, .f32⟩
  | 92 => ⟨S1700000x1, .i32⟩
  | 93 => ⟨S100000x64, .f32⟩
  | 94 => ⟨S1x64, .f32⟩
  | 95 => ⟨S1x16, .f32⟩
  | 96 => ⟨S100000x64, .f32⟩
  | 97 => ⟨S100000x16, .f32⟩
  | 98 => ⟨S1600000, .i1⟩
  | 99 => ⟨S1600000, .i1⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S1600000x64, .f32⟩
  | 119 => ⟨S_, .f32⟩
  | 120 => ⟨S1600000, .f32⟩
  | 121 => ⟨S_, .f32⟩
  | 122 => ⟨S1600000, .f32⟩
  | 123 => ⟨S1600000, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x64, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S1600000x64, .f32⟩
  | 15 => ⟨S_, .f32⟩
  | 16 => ⟨S1600000, .f32⟩
  | 17 => ⟨S_, .f32⟩
  | 18 => ⟨S1600000, .f32⟩
  | 19 => ⟨S1600000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S1600000x128, .f32⟩
  | 39 => ⟨S_, .f32⟩
  | 40 => ⟨S1600000, .f32⟩
  | 41 => ⟨S_, .f32⟩
  | 42 => ⟨S1600000, .f32⟩
  | 43 => ⟨S1600000, .f32⟩
  | 44 => ⟨S_, .f32⟩
  | 45 => ⟨S1600000, .f32⟩
  | 46 => ⟨S1600000, .f32⟩
  | 47 => ⟨S1600000, .f32⟩
  | 48 => ⟨S1600000, .f32⟩
  | 49 => ⟨S_, .f32⟩
  | 50 => ⟨S_, .f32⟩
  | 51 => ⟨S1600000, .f32⟩
  | 52 => ⟨S1600000, .f32⟩
  | 53 => ⟨S_, .f32⟩
  | 54 => ⟨S_, .f32⟩
  | 55 => ⟨S_, .f32⟩
  | 56 => ⟨S1600000, .f32⟩
  | 57 => ⟨S1600000, .f32⟩
  | 58 => ⟨S1600000, .f32⟩
  | 59 => ⟨S_, .f32⟩
  | 60 => ⟨S_, .f32⟩
  | 61 => ⟨S1600000, .f32⟩
  | 62 => ⟨S1600000, .f32⟩
  | 63 => ⟨S_, .f32⟩
  | 64 => ⟨S_, .f32⟩
  | 65 => ⟨S1600000, .i32⟩
  | 66 => ⟨S_, .i32⟩
  | 67 => ⟨S_, .i32⟩
  | 68 => ⟨S1600000, .i32⟩
  | 69 => ⟨S_, .i32⟩
  | 70 => ⟨S_, .i32⟩
  | 71 => ⟨S_, .i32⟩
  | 72 => ⟨S_, .f32⟩
  | 73 => ⟨S_, .f32⟩
  | 74 => ⟨S_, .f32⟩
  | 75 => ⟨S_, .f32⟩
  | 76 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S64x16, .f32⟩
  | .local _ .vmem, ⟨19, _⟩ => ⟨S1x16, .f32⟩
  | .local _ .vmem, ⟨20, _⟩ => ⟨S10000x64, .f32⟩
  | .local _ .vmem, ⟨21, _⟩ => ⟨S10000x64, .f32⟩
  | .local _ .vmem, ⟨22, _⟩ => ⟨S10000x16, .f32⟩
  | .local _ .vmem, ⟨23, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69_0 : Ref sig .tc := ⟨.hbm, 96, rfl⟩
abbrev main_v69_1 : Ref sig .tc := ⟨.hbm, 97, rfl⟩
abbrev main_v70 : Ref sig .tc := ⟨.hbm, 98, rfl⟩
abbrev main_v71 : Ref sig .tc := ⟨.hbm, 99, rfl⟩
abbrev main_c_13 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_15 : Ref sig .tc := ⟨.hbm, 109, rfl⟩
abbrev main_v79 : Ref sig .tc := ⟨.hbm, 110, rfl⟩
abbrev main_v80 : Ref sig .tc := ⟨.hbm, 111, rfl⟩
abbrev main_c_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_call1_cst : Ref sig .tc := ⟨.hbm, 121, rfl⟩
abbrev main_call1_v0 : Ref sig .tc := ⟨.hbm, 122, rfl⟩
abbrev main_v88 : Ref sig .tc := ⟨.hbm, 123, rfl⟩
abbrev main_c_18 : Ref sig .tc := ⟨.hbm, 124, rfl⟩
abbrev main_v89 : Ref sig .tc := ⟨.hbm, 125, rfl⟩
abbrev main_v90 : Ref sig .tc := ⟨.hbm, 126, rfl⟩
abbrev main_c_19 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_20 : Ref sig .tc := ⟨.hbm, 133, rfl⟩
abbrev main_v96 : Ref sig .tc := ⟨.hbm, 134, rfl⟩
abbrev main_v97 : Ref sig .tc := ⟨.hbm, 135, rfl⟩
abbrev main_c_21 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_22 : Ref sig .tc := ⟨.hbm, 143, rfl⟩
abbrev main_v104 : Ref sig .tc := ⟨.hbm, 144, rfl⟩
abbrev main_call2_cst : Ref sig .tc := ⟨.hbm, 145, rfl⟩
abbrev main_call2_v0 : Ref sig .tc := ⟨.hbm, 146, rfl⟩
abbrev main_v105 : Ref sig .tc := ⟨.hbm, 147, rfl⟩
abbrev main_c_23 : Ref sig .tc := ⟨.hbm, 148, rfl⟩
abbrev main_v106 : Ref sig .tc := ⟨.hbm, 149, rfl⟩
abbrev main_v107 : Ref sig .tc := ⟨.hbm, 150, rfl⟩
abbrev main_c_24 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_c_25 : Ref sig .tc := ⟨.hbm, 157, rfl⟩
abbrev main_v113 : Ref sig .tc := ⟨.hbm, 158, rfl⟩
abbrev main_v114 : Ref sig .tc := ⟨.hbm, 159, rfl⟩
abbrev main_c_26 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_27 : Ref sig .tc := ⟨.hbm, 167, rfl⟩
abbrev main_v121 : Ref sig .tc := ⟨.hbm, 168, rfl⟩
abbrev main_cst_28 : Ref sig .tc := ⟨.hbm, 169, rfl⟩
abbrev main_v122 : Ref sig .tc := ⟨.hbm, 170, rfl⟩
abbrev main_v123 : Ref sig .tc := ⟨.hbm, 171, rfl⟩
abbrev main_cst_29 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_30 : Ref sig .tc := ⟨.hbm, 177, rfl⟩
abbrev main_call3_v0 : Ref sig .tc := ⟨.hbm, 178, rfl⟩
abbrev main_call3_v1 : Ref sig .tc := ⟨.hbm, 179, rfl⟩
abbrev main_v128 : Ref sig .tc := ⟨.hbm, 180, rfl⟩
abbrev main_cst_31 : Ref sig .tc := ⟨.hbm, 181, rfl⟩
abbrev main_v129 : Ref sig .tc := ⟨.hbm, 182, rfl⟩
abbrev main_cst_32 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_33 : Ref sig .tc := ⟨.hbm, 187, rfl⟩
abbrev main_call4_v0 : Ref sig .tc := ⟨.hbm, 188, rfl⟩
abbrev main_call4_v1 : Ref sig .tc := ⟨.hbm, 189, rfl⟩
abbrev main_v133 : Ref sig .tc := ⟨.hbm, 190, rfl⟩
abbrev main_cst_34 : Ref sig .tc := ⟨.hbm, 191, rfl⟩
abbrev main_v134 : Ref sig .tc := ⟨.hbm, 192, rfl⟩
abbrev main_v135 : Ref sig .tc := ⟨.hbm, 193, rfl⟩
abbrev main_c_35 : Ref sig .tc := ⟨.hbm, 194, rfl⟩
abbrev main_v136 : Ref sig .tc := ⟨.hbm, 195, rfl⟩
abbrev main_v137 : Ref sig .tc := ⟨.hbm, 196, rfl⟩
abbrev main_c_36 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_37 : Ref sig .tc := ⟨.hbm, 202, rfl⟩
abbrev main_v142 : Ref sig .tc := ⟨.hbm, 203, rfl⟩
abbrev main_v143 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg4_1 : Ref sig .tc := ⟨.vmem, 21, rfl⟩
abbrev cc3_stg5_0 : Ref sig .tc := ⟨.vmem, 22, rfl⟩
abbrev cc3_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem4_1 : DmaSem sig := 21
abbrev cc3_sem5_0 : DmaSem sig := 22
abbrev cc3_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S10000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S16_S1x16 : S16.ShapeCasts S1x16
  reduces_S10000x64_S10000 : S10000x64.Reduces [1] S10000
  shapeCasts_S10000_S10000x1 : S10000.ShapeCasts S10000x1
  broadcasts_S10000x1_S10000x64 : S10000x1.Broadcasts S10000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  reducesTo_S1600000x128_S1600000_d1 : S1600000x128.ReducesTo [1] S1600000
  reducesTo_S1600000_S_d0 : S1600000.ReducesTo [0] S_
  natLt_1_32 : 1 < 32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  gather_S100000x64_S1600000x1_S1600000x64_1_0_n_n_0_1_164_wf : GatherDims.WF S100000x64 S1600000x1 S1600000x64 [1] [0] [] [0] [] 1 ![1, 64]
  gather_S100000x128_S1600000x1_S1600000x128_1_0_n_n_0_1_1128_wf : GatherDims.WF S100000x128 S1600000x1 S1600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x16.size a ≤ S64x16.size a
  hwx3_2 : ∀ i : grid3.Coords, EltTy.bits .f32 = 32 ∨ (Rect.block (s := S64x16) S64x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x16.size a ≤ S100000x16.size a
  hwx3_5 : ∀ i : grid3.Coords, EltTy.bits .f32 = 32 ∨ (Rect.block (s := S100000x16) S10000x16.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69_0) S10000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v69_1) S10000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000x64 : Shape := ⟨2, ![100000, 64]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S100000x16 : Shape := ⟨2, ![100000, 16]⟩
abbrev S1x16 : Shape := ⟨2, ![1, 16]⟩
abbrev S1600000x1 : Shape := ⟨2, ![1600000, 1]⟩
abbrev S1600000x64 : Shape := ⟨2, ![1600000, 64]⟩
abbrev S1600000x128 : Shape := ⟨2, ![1600000, 128]⟩

abbrev nBuf : Space → Nat
  | .hbm => 270
  | .vmem => 0
  | .smem => 0
  | _ => 0

abbrev hbmTy0_0 (i : Nat) : BufTy := match i % 128 with
  | 0 => ⟨S100000x128, .f32⟩
  | 1 => ⟨S100000x128, .f32⟩
  | 2 => ⟨S128x64, .f32⟩
  | 3 => ⟨S64, .f32⟩
  | 4 => ⟨S64x64, .f32⟩
  | 5 => ⟨S64, .f32⟩
  | 6 => ⟨S64x16, .f32⟩
  | 7 => ⟨S16, .f32⟩
  | 8 => ⟨S2x1600000, .i32⟩
  | 9 => ⟨S2x1600000, .i32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S100000x64, .f32⟩
  | 17 => ⟨S100000, .i32⟩
  | 18 => ⟨S1700000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S100000, .i32⟩
  | 79 => ⟨S1700000, .i32⟩
  | 80 => ⟨S1700000, .i32⟩
  | 81 => ⟨S_, .f32⟩
  | 82 => ⟨S100000, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x64, .f32⟩
  | 125 => ⟨S1700000x1, .f32⟩
  | 126 => ⟨S1700000x64, .f32⟩
  | 127 => ⟨S1700000x64, .f32⟩
  | _ => ⟨S100000x128, .f32⟩

abbrev hbmTy0_1 (i : Nat) : BufTy := match i % 128 with
  | 0 => ⟨S_, .f32⟩
  | 1 => ⟨S100000x64, .f32⟩
  | 2 => ⟨S1700000x1, .i32⟩
  | 3 => ⟨S100000x64, .f32⟩
  | 4 => ⟨S1x64, .f32⟩
  | 5 => ⟨S100000x64, .f32⟩
  | 6 => ⟨S100000x64, .f32⟩
  | 7 => ⟨S100000x64, .f32⟩
  | 8 => ⟨S_, .f32⟩
  | 9 => ⟨S100000, .f32⟩
  | 10 => ⟨S100000x1, .f32⟩
  | 11 => ⟨S100000x1, .f32⟩
  | 12 => ⟨S_, .f32⟩
  | 13 => ⟨S100000x1, .f32⟩
  | 14 => ⟨S100000x1, .f32⟩
  | 15 => ⟨S100000x64, .f32⟩
  | 16 => ⟨S100000x64, .f32⟩
  | 17 => ⟨S100000x64, .f32⟩
  | 18 => ⟨S_, .f32⟩
  | 19 => ⟨S100000, .f32⟩
  | 20 => ⟨S100000x1, .f32⟩
  | 21 => ⟨S100000x1, .f32⟩
  | 22 => ⟨S_, .f32⟩
  | 23 => ⟨S100000x1, .f32⟩
  | 24 => ⟨S100000x1, .f32⟩
  | 25 => ⟨S100000x64, .f32⟩
  | 26 => ⟨S100000x64, .f32⟩
  | 27 => ⟨S100000x16, .f32⟩
  | 28 => ⟨S1x16, .f32⟩
  | 29 => ⟨S100000x16, .f32⟩
  | 30 => ⟨S100000x16, .f32⟩
  | 31 => ⟨S1x1600000, .i32⟩
  | 32 => ⟨S1600000, .i32⟩
  | 33 => ⟨S1x1600000, .i32⟩
  | 34 => ⟨S1600000, .i32⟩
  | 35 => ⟨S1600000, .i1⟩
  | 36 => ⟨S1600000, .i1⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x64, .f32⟩
  | 56 => ⟨S_, .f32⟩
  | 57 => ⟨S1600000, .f32⟩
  | 58 => ⟨S_, .f32⟩
  | 59 => ⟨S1600000, .f32⟩
  | 60 => ⟨S1600000, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S1600000x64, .f32⟩
  | 80 => ⟨S_, .f32⟩
  | 81 => ⟨S1600000, .f32⟩
  | 82 => ⟨S_, .f32⟩
  | 83 => ⟨S1600000, .f32⟩
  | 84 => ⟨S1600000, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S1600000x128, .f32⟩
  | 104 => ⟨S_, .f32⟩
  | 105 => ⟨S1600000, .f32⟩
  | 106 => ⟨S_, .f32⟩
  | 107 => ⟨S1600000, .f32⟩
  | 108 => ⟨S1600000, .f32⟩
  | 109 => ⟨S_, .f32⟩
  | 110 => ⟨S1600000, .f32⟩
  | 111 => ⟨S1600000, .f32⟩
  | 112 => ⟨S1600000, .f32⟩
  | 113 => ⟨S1600000, .f32⟩
  | 114 => ⟨S_, .f32⟩
  | 115 => ⟨S_, .f32⟩
  | 116 => ⟨S1600000, .f32⟩
  | 117 => ⟨S1600000, .f32⟩
  | 118 => ⟨S_, .f32⟩
  | 119 => ⟨S_, .f32⟩
  | 120 => ⟨S_, .f32⟩
  | 121 => ⟨S1600000, .f32⟩
  | 122 => ⟨S1600000, .f32⟩
  | 123 => ⟨S1600000, .f32⟩
  | 124 => ⟨S_, .f32⟩
  | 125 => ⟨S_, .f32⟩
  | 126 => ⟨S1600000, .f32⟩
  | 127 => ⟨S1600000, .f32⟩
  | _ => ⟨S100000x128, .f32⟩

abbrev hbmTy0_2 (i : Nat) : BufTy := match i % 128 with
  | 0 => ⟨S_, .f32⟩
  | 1 => ⟨S_, .f32⟩
  | 2 => ⟨S1600000, .i32⟩
  | 3 => ⟨S_, .i32⟩
  | 4 => ⟨S_, .i32⟩
  | 5 => ⟨S1600000, .i32⟩
  | 6 => ⟨S_, .i32⟩
  | 7 => ⟨S_, .i32⟩
  | 8 => ⟨S_, .i32⟩
  | 9 => ⟨S_, .f32⟩
  | 10 => ⟨S_, .f32⟩
  | 11 => ⟨S_, .f32⟩
  | 12 => ⟨S_, .f32⟩
  | 13 => ⟨S_, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_call2_v0 : Ref sig .tc := ⟨.hbm, 93, rfl⟩
abbrev main_call2_v1 : Ref sig .tc := ⟨.hbm, 94, rfl⟩
abbrev main_v63 : Ref sig .tc := ⟨.hbm, 95, rfl⟩
abbrev main_c_14 : Ref sig .tc := ⟨.hbm, 96, rfl⟩
abbrev main_v64 : Ref sig .tc := ⟨.hbm, 97, rfl⟩
abbrev main_v65 : Ref sig .tc := ⟨.hbm, 98, rfl⟩
abbrev main_c_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_16 : Ref sig .tc := ⟨.hbm, 106, rfl⟩
abbrev main_v72 : Ref sig .tc := ⟨.hbm, 107, rfl⟩
abbrev main_v73 : Ref sig .tc := ⟨.hbm, 108, rfl⟩
abbrev main_c_17 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_18 : Ref sig .tc := ⟨.hbm, 116, rfl⟩
abbrev main_v80 : Ref sig .tc := ⟨.hbm, 117, rfl⟩
abbrev main_v81 : Ref sig .tc := ⟨.hbm, 118, rfl⟩
abbrev main_c_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_20 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_call3_v0 : Ref sig .tc := ⟨.hbm, 135, rfl⟩
abbrev main_call3_cst : Ref sig .tc := ⟨.hbm, 136, rfl⟩
abbrev main_call3_v1 : Ref sig .tc := ⟨.hbm, 137, rfl⟩
abbrev main_call3_v2 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_call4_v0 : Ref sig .tc := ⟨.hbm, 145, rfl⟩
abbrev main_call4_cst : Ref sig .tc := ⟨.hbm, 146, rfl⟩
abbrev main_call4_v1 : Ref sig .tc := ⟨.hbm, 147, rfl⟩
abbrev main_call4_v2 : Ref sig .tc := ⟨.hbm, 148, rfl⟩
abbrev main_v101 : Ref sig .tc := ⟨.hbm, 149, rfl⟩
abbrev main_cst_22 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_23 : Ref sig .tc := ⟨.hbm, 165, rfl⟩
abbrev main_v116 : Ref sig .tc := ⟨.hbm, 166, rfl⟩
abbrev main_v117 : Ref sig .tc := ⟨.hbm, 167, rfl⟩
abbrev main_c_24 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_25 : Ref sig .tc := ⟨.hbm, 174, rfl⟩
abbrev main_v123 : Ref sig .tc := ⟨.hbm, 175, rfl⟩
abbrev main_v124 : Ref sig .tc := ⟨.hbm, 176, rfl⟩
abbrev main_c_26 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_27 : Ref sig .tc := ⟨.hbm, 184, rfl⟩
abbrev main_v131 : Ref sig .tc := ⟨.hbm, 185, rfl⟩
abbrev main_call5_cst : Ref sig .tc := ⟨.hbm, 186, rfl⟩
abbrev main_call5_v0 : Ref sig .tc := ⟨.hbm, 187, rfl⟩
abbrev main_v132 : Ref sig .tc := ⟨.hbm, 188, rfl⟩
abbrev main_c_28 : Ref sig .tc := ⟨.hbm, 189, rfl⟩
abbrev main_v133 : Ref sig .tc := ⟨.hbm, 190, rfl⟩
abbrev main_v134 : Ref sig .tc := ⟨.hbm, 191, rfl⟩
abbrev main_c_29 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_c_30 : Ref sig .tc := ⟨.hbm, 198, rfl⟩
abbrev main_v140 : Ref sig .tc := ⟨.hbm, 199, rfl⟩
abbrev main_v141 : Ref sig .tc := ⟨.hbm, 200, rfl⟩
abbrev main_c_31 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_32 : Ref sig .tc := ⟨.hbm, 208, rfl⟩
abbrev main_v148 : Ref sig .tc := ⟨.hbm, 209, rfl⟩
abbrev main_call6_cst : Ref sig .tc := ⟨.hbm, 210, rfl⟩
abbrev main_call6_v0 : Ref sig .tc := ⟨.hbm, 211, rfl⟩
abbrev main_v149 : Ref sig .tc := ⟨.hbm, 212, rfl⟩
abbrev main_c_33 : Ref sig .tc := ⟨.hbm, 213, rfl⟩
abbrev main_v150 : Ref sig .tc := ⟨.hbm, 214, rfl⟩
abbrev main_v151 : Ref sig .tc := ⟨.hbm, 215, rfl⟩
abbrev main_c_34 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_c_35 : Ref sig .tc := ⟨.hbm, 222, rfl⟩
abbrev main_v157 : Ref sig .tc := ⟨.hbm, 223, rfl⟩
abbrev main_v158 : Ref sig .tc := ⟨.hbm, 224, rfl⟩
abbrev main_c_36 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_cst_37 : Ref sig .tc := ⟨.hbm, 232, rfl⟩
abbrev main_v165 : Ref sig .tc := ⟨.hbm, 233, rfl⟩
abbrev main_cst_38 : Ref sig .tc := ⟨.hbm, 234, rfl⟩
abbrev main_v166 : Ref sig .tc := ⟨.hbm, 235, rfl⟩
abbrev main_v167 : Ref sig .tc := ⟨.hbm, 236, rfl⟩
abbrev main_cst_39 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_cst_40 : Ref sig .tc := ⟨.hbm, 242, rfl⟩
abbrev main_call7_v0 : Ref sig .tc := ⟨.hbm, 243, rfl⟩
abbrev main_call7_v1 : Ref sig .tc := ⟨.hbm, 244, rfl⟩
abbrev main_v172 : Ref sig .tc := ⟨.hbm, 245, rfl⟩
abbrev main_cst_41 : Ref sig .tc := ⟨.hbm, 246, rfl⟩
abbrev main_v173 : Ref sig .tc := ⟨.hbm, 247, rfl⟩
abbrev main_cst_42 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_cst_43 : Ref sig .tc := ⟨.hbm, 252, rfl⟩
abbrev main_call8_v0 : Ref sig .tc := ⟨.hbm, 253, rfl⟩
abbrev main_call8_v1 : Ref sig .tc := ⟨.hbm, 254, rfl⟩
abbrev main_v177 : Ref sig .tc := ⟨.hbm, 255, rfl⟩
abbrev main_cst_44 : Ref sig .tc := ⟨.hbm, 256, rfl⟩
abbrev main_v178 : Ref sig .tc := ⟨.hbm, 257, rfl⟩
abbrev main_v179 : Ref sig .tc := ⟨.hbm, 258, rfl⟩
abbrev main_c_45 : Ref sig .tc := ⟨.hbm, 259, rfl⟩
abbrev main_v180 : Ref sig .tc := ⟨.hbm, 260, rfl⟩
abbrev main_v181 : Ref sig .tc := ⟨.hbm, 261, rfl⟩
abbrev main_c_46 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_cst_47 : Ref sig .tc := ⟨.hbm, 267, rfl⟩
abbrev main_v186 : Ref sig .tc := ⟨.hbm, 268, rfl⟩
abbrev main_v187 : Ref sig .tc := ⟨.hbm, 269, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1600000_S1600000x1_0 : S1600000.BroadcastsInDim S1600000x1 (![0] : Fin 1 → Fin S1600000x1.rank)
  reducesTo_S1600000x64_S1600000_d1 : S1600000x64.ReducesTo [1] S1600000
  reducesTo_S1600000x128_S1600000_d1 : S1600000x128.ReducesTo [1] S1600000
  reducesTo_S1600000_S_d0 : S1600000.ReducesTo [0] S_
  natLt_1_32 : 1 < 32
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  gather_S100000x64_S1600000x1_S1600000x64_1_0_n_n_0_1_164_wf : GatherDims.WF S100000x64 S1600000x1 S1600000x64 [1] [0] [] [0] [] 1 ![1, 64]
  gather_S100000x128_S1600000x1_S1600000x128_1_0_n_n_0_1_1128_wf : GatherDims.WF S100000x128 S1600000x1 S1600000x128 [1] [0] [] [0] [] 1 ![1, 128]

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

class Facts : Prop extends Facts₀ where

variable [Facts]
-- ==== Proof.KRun.lean ====
/-
  The idealized kernel program's run, with its three results named.

  The program is four pallas_call regions among stretches of host operations. Its generated frame certificate folds the
  buffer contents through the segments — a stretch of host operations applies them, a region leaves each of its
  arrays at what its write-backs hold — and ends at one valuation of all buffers at the return. The frame claim
  reads only the argument arrays off that valuation; here the same run is read at the three result buffers as
  well: the normalised representation, the reconstruction loss and the class scores each end at the fold's value.
-/
import proofs.«159260_j58506044506633_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; each result buffer ends at the value the
    fold through the segments gives it, and the argument arrays end as launched. -/
theorem run_vals : θ_run defs (onTc (τ := τ) (main (F := F))) ⟨m, fun _ => 0, ρ⟩ (fun r => ∀ c : Dev nD,
      r.2.mem ((c.tc : Thread nD τ).loc main_v69_0) = W18 m ρ c (Proc.devRef .tc main_v69_0)
      ∧ r.2.mem ((c.tc : Thread nD τ).loc main_v143) = W18 m ρ c (Proc.devRef .tc main_v143)
      ∧ r.2.mem ((c.tc : Thread nD τ).loc main_v69_1) = W18 m ρ c (Proc.devRef .tc main_v69_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v69_0 (by decide)),
       h c _ (mem_uc main_v143 (by decide)),
       h c _ (mem_uc main_v69_1 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c)⟩)

end Cert.KernelIdeal.KRun

end
-- ==== Proof.Spec.lean ====
/-
  The pieces both programs share, as functions of their inputs.

  For an array x of 100000 rows and 64 columns, `l2n x` divides every row by max(‖row‖₂, ε): the squares are
  summed along the row, the root taken, the floor ε (the float whose word is 0x2B8CBCCC, about 1e-12) applied, and
  the row divided by the result. Both programs normalise the second layer's output twice, so the representation is
  `l2n (l2n x₂)`. A bias vector enters a layer laid along every row (`rows64`, `rows16`), and the first layer's
  activation is the maximum with the zero array (`zeros64`).
-/
import proofs.«159260_j58506044506633_2_alg».proof.ReferenceIdeal
import proofs.«159260_j58506044506633_2_alg».proof.Proof.Gen.ReferenceIdeal
import Idealize.ShloMosaic.PureOps.Ideal

noncomputable section

namespace Cert.Spec

open Idealize.ShloMosaic Idealize.ShloMosaic.TcCoe Idealize.SL.Sem
open Cert.ReferenceIdeal Cert.ReferenceIdeal.Gen

/-- Every row of `x` divided by the larger of its Euclidean norm and ε. -/
def l2n (x : (⟨S100000x64, .f32⟩ : BufTy).Contents (Elt Ideal)) : (⟨S100000x64, .f32⟩ : BufTy).Contents (Elt Ideal) :=
  Host.divf x (broadcastInDim S100000x64 ![0, 1] bcast_S100000x1_S100000x64_0_1
    (maximumf (Host.sqrt (broadcastInDim S100000x1 ![0] bcast_S100000_S100000x1_0
        (Host.reduceAdd (mulf x x) (constant (F := Ideal) S_ .f32 0x00000000#32) reducesTo_S100000x64_S100000_d1 h_S_)))
      (broadcastInDim S100000x1 ![] bcast_S_S100000x1 (constant (F := Ideal) S_ .f32 0x2B8CBCCC#32))))

/-- A vector of length 64 laid along every one of 100000 rows. -/
def rows64 (b : (⟨S64, .f32⟩ : BufTy).Contents (Elt Ideal)) : (⟨S100000x64, .f32⟩ : BufTy).Contents (Elt Ideal) :=
  broadcastInDim S100000x64 ![0, 1] bcast_S1x64_S100000x64_0_1 (broadcastInDim S1x64 ![1] bcast_S64_S1x64_1 b)

/-- A vector of length 16 laid along every one of 100000 rows. -/
def rows16 (b : (⟨S16, .f32⟩ : BufTy).Contents (Elt Ideal)) : (⟨S100000x16, .f32⟩ : BufTy).Contents (Elt Ideal) :=
  broadcastInDim S100000x16 ![0, 1] bcast_S1x16_S100000x16_0_1 (broadcastInDim S1x16 ![1] bcast_S16_S1x16_1 b)

/-- The zero array of 100000 rows and 64 columns. -/
def zeros64 : (⟨S100000x64, .f32⟩ : BufTy).Contents (Elt Ideal) :=
  broadcastInDim S100000x64 ![] bcast_S_S100000x64 (constant (F := Ideal) S_ .f32 0x00000000#32)

end Cert.Spec

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«159260_j58506044506633_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.RegionMM.lean ====
/-
  The two matrix-product regions, read as whole arrays.

  Region 0 multiplies a [100000, 128] array by a [128, 64] array, region 2 a [100000, 64] array by a
  [64, 64] array.  Each runs over a grid of 10 points: point t takes rows 10000·t … 10000·t + 9999 of the
  left operand and the whole right operand, multiplies them into a zero accumulator, and writes the
  [10000, 64] result back as rows 10000·t … 10000·t + 9999 of the output array.

  Claim: after the 10 points the output array is the whole product, the plain sum over k of
  lhs (r, k) · rhs (k, c) at every (r, c).  At the ideal values — floats extended reals, every operation
  exact — a row block of the product is the product of the row block: both are the same sum over k, with
  no rounding and no order of summation left in it.  So what point t writes back is block t of the whole
  product; the 10 blocks cover every row (row r lies in block r / 10000); hence the array ends holding
  the whole product.  Both statements hold for any contents the region finds on entry.
-/
import proofs.«159260_j58506044506633_2_alg».proof.Proof.Gen.KernelIdeal.Frame
import proofs.«159260_j58506044506633_2_alg».proof.Proof.Spec
import proofs.«159260_j58506044506633_2_alg».proof.Proof.LibRowBlocks
import Idealize.ShloMosaic.Lib.Pipeline.Value
import Idealize.ShloMosaic.Lib.ValueIdx

set_option maxRecDepth 16384

noncomputable section

namespace Cert.KernelIdeal.RegionMM

open Idealize.ShloMosaic Idealize.ShloMosaic.TcCoe Idealize.SL.Sem Idealize.ShloMosaic.ValueIdx
open Cert.KernelIdeal Cert.KernelIdeal.Gen
open Idealize.ShloMosaic.Pipeline (Dat)

/-- The offset (0, 0) is the zero offset. -/
theorem offset_zero : (![0, 0] : Fin 2 → Nat) = fun _ => 0 := funext fun a => by fin_cases a <;> rfl

/-! ## Region 0: [100000, 128] × [128, 64] -/

/-- Where point t's blocks sit: the left operand's and the output's block t along the rows, the one block
    along the columns; the right operand's one block. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of 10000 rows of the left operand times the right operand, at the block's index j, is the whole
    product at the array's index i, when row j 0 of the block is row i 0 of the array, the block's right
    operand agrees with the whole one in column j 1, and the two indices name the same column. -/
theorem rows_product0 (A : FVec Ideal S100000x128 .f32) (W : FVec Ideal S128x64 .f32)
    (xb : Vec Ideal S10000x128 .f32) (wb : Vec Ideal S128x64 .f32)
    (j : S10000x64.Idx) (i : S100000x64.Idx)
    (hx : ∀ k : Fin 128, xb (ix2 (j 0) k) = A (ix2 (i 0) k))
    (hw : ∀ k : Fin 128, wb (ix2 k (j 1)) = W (ix2 k (j 1)))
    (hi : i 1 = j 1) :
    k0_pay1 (F := Ideal) xb wb j
      = Host.dotGeneral (F := Ideal) (φ₁ := .f32) (φ₂ := .f32) Cert.ReferenceIdeal.dot_S100000x128_S128x64_S100000x64_1_0_0_1_n_n none A W i := by
  rw [eq_ix2 j, eq_ix2 i, hi]
  exact Cert.Lib.RowBlocks.matmul_rows_eq_dotGeneral none none A W xb wb (j 0) (i 0) (j 1) hx hw

section Region0
variable (V : (c : Dev nD) → (b : Ref sig .tc) → Buf (Elt Ideal) ((c : Thread nD τ).loc b)) (c : Dev nD)

/-- The whole product of the two arrays region 0 finds on entry. -/
abbrev product0 : (⟨S100000x64, .f32⟩ : BufTy).Contents (Elt Ideal) :=
  Host.dotGeneral (F := Ideal) (φ₁ := .f32) (φ₂ := .f32) Cert.ReferenceIdeal.dot_S100000x128_S128x64_S100000x64_1_0_0_1_n_n none (V c main_arg0) (V c main_arg2)

/-- What point t writes back is block t of the whole product.  A block's coordinate in its array is the
    block's index times the block's extent plus the coordinate inside the block. -/
theorem written0_eq (t : Fin cfg0.N) :
    (dat0 (F := Ideal) V c).flushed 2 t = ((cfg0.win 2).blk t).view.read (Elt Ideal) (product0 V c) := by
  show (cfg0.win 2).cut (grid0.coords t) ((dat0 (F := Ideal) V c).after 2 t) = _
  rw [after0_2]
  unfold out0_2
  rw [View.canon_unit_zero offset_zero]
  simp only [View.ld_unit_zero (S := S10000x128) offset_zero, View.ld_unit_zero (S := S128x64) offset_zero]
  obtain ⟨e0, e1, e2, e3, e4, e5⟩ := block_index0 t
  funext j
  show k0_pay1 (iblk0 V c 0 t) (iblk0 V c 1 t) j = product0 V c (((cfg0.win 2).blk t).view.emb j)
  refine rows_product0 (V c main_arg0) (V c main_arg2) _ _ j _ (fun k => ?_) (fun k => ?_) ?_
  · show V c main_arg0 (((cfg0.win 0).blk t).view.emb (ix2 (j 0) k)) = _
    refine congrArg (V c main_arg0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1))) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * (j 1).val = (j 1).val; omega
  · apply Fin.ext
    show win0_2.index t (1 : Fin 2) * 64 + 1 * (j 1).val = (j 1).val; omega

/-- An index of the output array is in point t's block iff each coordinate is in the block's range. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v37).slice (win0_2.rect t)).set ↔ _
  rw [View.set_slice_whole, Rect.mem_set_unit]
  exact Iff.rfl

/-- The blocks cover the output array: row r lies in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by show _ < grid0.N; rw [N_0]; omega⟩, rfl⟩
  obtain ⟨e0, e1, e2, e3, e4, e5⟩ := block_index0 t
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After its 10 points, region 0's output array is the whole product of the two arrays it found. -/
theorem region0_val : @Eq ((⟨S100000x64, .f32⟩ : BufTy).Contents (Elt Ideal)) ((dat0 (F := Ideal) V c).arrAt 2 cfg0.N)
    (Host.dotGeneral (F := Ideal) (φ₁ := .f32) (φ₂ := .f32) Cert.ReferenceIdeal.dot_S100000x128_S128x64_S100000x64_1_0_0_1_n_n none (V c main_arg0) (V c main_arg2)) :=
  (dat0 (F := Ideal) V c).arrAt_eq_of_cover 2 (product0 V c) (fun t _ => written0_eq V c t) (cover0)
end Region0

/-! ## Region 2: [100000, 64] × [64, 64] -/

/-- Where point t's blocks sit: the left operand's and the output's block t along the rows, the one block
    along the columns; the right operand's one block. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block of 10000 rows of the left operand, recast to its own shape, times the right operand, at the
    block's index j, is the whole product at the array's index i, when row j 0 of the block is row i 0 of
    the array, the block's right operand agrees with the whole one in column j 1, and the two indices name
    the same column. -/
theorem rows_product2 (A : FVec Ideal S100000x64 .f32) (W : FVec Ideal S64x64 .f32)
    (xb : Vec Ideal S10000x64 .f32) (wb : Vec Ideal S64x64 .f32)
    (j : S10000x64.Idx) (i : S100000x64.Idx)
    (hx : ∀ k : Fin 64, xb (ix2 (j 0) k) = A (ix2 (i 0) k))
    (hw : ∀ k : Fin 64, wb (ix2 k (j 1)) = W (ix2 k (j 1)))
    (hi : i 1 = j 1) :
    k2_pay1 (F := Ideal) xb wb j
      = Host.dotGeneral (F := Ideal) (φ₁ := .f32) (φ₂ := .f32) Cert.ReferenceIdeal.dot_S100000x64_S64x64_S100000x64_1_0_0_1_n_n none A W i := by
  rw [eq_ix2 j, eq_ix2 i, hi]
  show matmul (DotDims.plain 10000 64 64) none (shapeCast S10000x64 xb shapeCasts_S10000x64_S10000x64) wb
      (constant (F := Ideal) ⟨2, ![10000, 64]⟩ .f32 0x00000000#32) (ix2 (j 0) (j 1)) = _
  rw [shapeCast_self]
  exact Cert.Lib.RowBlocks.matmul_rows_eq_dotGeneral none none A W xb wb (j 0) (i 0) (j 1) hx hw

section Region2
variable (V : (c : Dev nD) → (b : Ref sig .tc) → Buf (Elt Ideal) ((c : Thread nD τ).loc b)) (c : Dev nD)

/-- The whole product of the two arrays region 2 finds on entry. -/
abbrev product2 : (⟨S100000x64, .f32⟩ : BufTy).Contents (Elt Ideal) :=
  Host.dotGeneral (F := Ideal) (φ₁ := .f32) (φ₂ := .f32) Cert.ReferenceIdeal.dot_S100000x64_S64x64_S100000x64_1_0_0_1_n_n none (V c main_v52) (V c main_arg4)

/-- What point t writes back is block t of the whole product. -/
theorem written2_eq (t : Fin cfg2.N) :
    (dat2 (F := Ideal) V c).flushed 2 t = ((cfg2.win 2).blk t).view.read (Elt Ideal) (product2 V c) := by
  show (cfg2.win 2).cut (grid2.coords t) ((dat2 (F := Ideal) V c).after 2 t) = _
  rw [after2_2]
  unfold out2_2
  rw [View.canon_unit_zero offset_zero]
  simp only [View.ld_unit_zero (S := S10000x64) offset_zero, View.ld_unit_zero (S := S64x64) offset_zero]
  obtain ⟨e0, e1, e2, e3, e4, e5⟩ := block_index2 t
  funext j
  show k2_pay1 (iblk2 V c 0 t) (iblk2 V c 1 t) j = product2 V c (((cfg2.win 2).blk t).view.emb j)
  refine rows_product2 (V c main_v52) (V c main_arg4) _ _ j _ (fun k => ?_) (fun k => ?_) ?_
  · show V c main_v52 (((cfg2.win 0).blk t).view.emb (ix2 (j 0) k)) = _
    refine congrArg (V c main_v52) ?_
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  · show V c main_arg4 (((cfg2.win 1).blk t).view.emb (ix2 k (j 1))) = _
    refine congrArg (V c main_arg4) ?_
    funext a; apply Fin.ext
    match a with
    | ⟨0, _⟩ => show win2_1.index t (0 : Fin 2) * 64 + 1 * k.val = k.val; omega
    | ⟨1, _⟩ => show win2_1.index t (1 : Fin 2) * 64 + 1 * (j 1).val = (j 1).val; omega
  · apply Fin.ext
    show win2_2.index t (1 : Fin 2) * 64 + 1 * (j 1).val = (j 1).val; omega

/-- An index of the output array is in point t's block iff each coordinate is in the block's range. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v53).slice (win2_2.rect t)).set ↔ _
  rw [View.set_slice_whole, Rect.mem_set_unit]
  exact Iff.rfl

/-- The blocks cover the output array: row r lies in the block of point r / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by show _ < grid2.N; rw [N_2]; omega⟩, rfl⟩
  obtain ⟨e0, e1, e2, e3, e4, e5⟩ := block_index2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After its 10 points, region 2's output array is the whole product of the two arrays it found. -/
theorem region2_val : @Eq ((⟨S100000x64, .f32⟩ : BufTy).Contents (Elt Ideal)) ((dat2 (F := Ideal) V c).arrAt 2 cfg2.N)
    (Host.dotGeneral (F := Ideal) (φ₁ := .f32) (φ₂ := .f32) Cert.ReferenceIdeal.dot_S100000x64_S64x64_S100000x64_1_0_0_1_n_n none (V c main_v52) (V c main_arg4)) :=
  (dat2 (F := Ideal) V c).arrAt_eq_of_cover 2 (product2 V c) (fun t _ => written2_eq V c t) (cover2)
end Region2

end Cert.KernelIdeal.RegionMM

end
-- ==== Proof.LibColumns.lean ====
/-
  One column broadcast over many, and a vector recast as a column.

  Two layout facts read at an index, for any extents: an array of shape [a, 1] (one value per row) broadcast to
  [a, b] reads at (p, c) the value of row p; and a vector of length a recast to shape [a, 1] reads at (p, 0) the
  vector's entry p.
-/
import Idealize.ShloMosaic.Lib.Pipeline.Value
import Idealize.ShloMosaic.Lib.ValueIdx

noncomputable section

namespace Cert.Lib.Columns

open Idealize.ShloMosaic Idealize.ShloMosaic.ValueIdx

variable {α : Type}

/-- An [a, 1] array broadcast to [a, b] reads, at (p, c), the operand's row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a recast to shape [a, 1] reads, at (p, 0), the vector's entry p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

end Cert.Lib.Columns

end
-- ==== Proof.RegionAct.lean ====
/-
  The two regions that act row by row: the first layer's bias and rectifier, and the fused second-layer head.

  Region 1 walks the 100000 rows of its input in ten blocks of 10000. At each block it adds the bias vector, laid
  along every row, and takes the maximum with zero; the block is written back to the same rows of the output. Every
  entry (r, j) of the output depends on entry (r, j) of the input and entry j of the bias only, so the ten blocks
  together are the one array max(x + rows(b), 0).

  Region 3 walks the rows the same way. At each block it adds the bias, then divides every row by the larger of its
  Euclidean norm and ε, twice; that is its first output. Its second output is the first times a 64 × 16 matrix, plus
  a second bias laid along every row. Entry (r, j) of the first output depends on row r of the input only, and it is
  the same expression, a quotient by a root of a sum of 64 squares, whether the row is read inside its block or inside
  the whole array. Entry (r, c) of the second output is a sum over 64 products of row r of the first output with column
  c of the matrix, again the same sum on both readings.
-/
import proofs.«159260_j58506044506633_2_alg».proof.Proof.Gen.KernelIdeal.Frame
import proofs.«159260_j58506044506633_2_alg».proof.Proof.Spec
import proofs.«159260_j58506044506633_2_alg».proof.Proof.LibColumns
import proofs.«159260_j58506044506633_2_alg».proof.Proof.LibRowBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionAct

open Idealize.ShloMosaic Idealize.ShloMosaic.TcCoe Idealize.SL.Sem
open Idealize.ShloMosaic.ValueIdx
open Idealize.ShloMosaic.Pipeline (Dat)
open Cert.KernelIdeal Cert.KernelIdeal.Gen

/-! ## Shared readings at an index -/

/-- The zero offsets of a whole-buffer access, as a constant function. -/
theorem zero_offsets : (![0, 0] : Fin 2 → Nat) = fun _ => 0 := funext fun a => by fin_cases a <;> rfl

/-- A bias vector laid along every row reads, at (r, j), the vector's entry j. -/
theorem rows64_apply (b : (⟨S64, .f32⟩ : BufTy).Contents (Elt Ideal)) (r : Fin 100000) (j : Fin 64) :
    Cert.Spec.rows64 b (ix2 r j) = b (ix1 j) := by
  unfold Cert.Spec.rows64
  refine (broadcastInDim_apply _ _ _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  exact broadcastInDim_apply _ _ b (ix2 (0 : Fin 1) j) (ix1 j) (fun a => match a with
    | ⟨0, _⟩ => by show j.val = if (64 : Nat) = 1 then 0 else j.val; rw [if_neg (by decide)])

/-- The zero array reads the zero word everywhere. -/
theorem zeros64_apply (i : S100000x64.Idx) : Cert.Spec.zeros64 i = Ideal.ofBits .f32 0x00000000#32 := by
  unfold Cert.Spec.zeros64
  exact broadcastInDim_apply _ _ (constant (F := Ideal) Cert.ReferenceIdeal.S_ .f32 0x00000000#32) i ix0 (fun a => a.elim0)

/-- Region 1's arithmetic on a block, at (p, j): the block's entry plus the bias row's entry j, floored at zero. -/
theorem k1_pay1_apply (x0 : Vec Ideal S10000x64 .f32) (x1 : Vec Ideal S1x64 .f32) (p : Fin 10000) (j : Fin 64) :
    k1_pay1 (F := Ideal) x0 x1 (ix2 p j) = max (x0 (ix2 p j) + x1 (ix2 (0 : Fin 1) j)) (Ideal.ofBits .f32 0x00000000#32) := by
  unfold k1_pay1
  rw [shapeCast_self, shapeCast_self]
  show max (x0 (ix2 p j) + broadcastTo S10000x64 x1 broadcasts_S1x64_S10000x64 (ix2 p j)) _ = _
  refine congrArg (fun z => max (x0 (ix2 p j) + z) _) ?_
  exact broadcastTo_apply x1 broadcasts_S1x64_S10000x64 (ix2 p j) (ix2 (0 : Fin 1) j) (fun a => match a with
    | ⟨0, _⟩ => by show 0 = if (1 : Nat) = 1 then 0 else _; rw [if_pos rfl]
    | ⟨1, _⟩ => by show j.val = if (64 : Nat) = 1 then 0 else j.val; rw [if_neg (by decide)])

/-- the first layer's activation as one array: the rows of x plus the bias, floored at zero -/
abbrev act1 (x : (⟨S100000x64, .f32⟩ : BufTy).Contents (Elt Ideal)) (b : (⟨S64, .f32⟩ : BufTy).Contents (Elt Ideal)) :
    (⟨S100000x64, .f32⟩ : BufTy).Contents (Elt Ideal) :=
  maximumf (F := Ideal) (φ := .f32) (addf (F := Ideal) (φ := .f32) x (Cert.Spec.rows64 b)) Cert.Spec.zeros64

/-- The activation at (r, j): x (r, j) plus b j, floored at zero. -/
theorem act1_apply (x : (⟨S100000x64, .f32⟩ : BufTy).Contents (Elt Ideal)) (b : (⟨S64, .f32⟩ : BufTy).Contents (Elt Ideal))
    (r : Fin 100000) (j : Fin 64) :
    act1 x b (ix2 r j) = max (x (ix2 r j) + b (ix1 j)) (Ideal.ofBits .f32 0x00000000#32) := by
  show max (x (ix2 r j) + Cert.Spec.rows64 b (ix2 r j)) (Cert.Spec.zeros64 (ix2 r j)) = _
  rw [rows64_apply, zeros64_apply]

/-- one entry of a block's payload is the activation's entry, when the block's row is the array's row -/
theorem k1_entry (x0 : Vec Ideal S10000x64 .f32) (x1 : Vec Ideal S1x64 .f32)
    (x : (⟨S100000x64, .f32⟩ : BufTy).Contents (Elt Ideal)) (b : (⟨S64, .f32⟩ : BufTy).Contents (Elt Ideal))
    (p : Fin 10000) (j : Fin 64) (r : Fin 100000)
    (h0 : x0 (ix2 p j) = x (ix2 r j)) (h1 : x1 (ix2 (0 : Fin 1) j) = b (ix1 j)) :
    k1_pay1 (F := Ideal) x0 x1 (ix2 p j) = act1 x b (ix2 r j) := by
  rw [k1_pay1_apply, act1_apply, h0, h1]

/-! ## Region 1 -/

section Region1
variable (V : (c : Dev nD) → (b : Ref sig .tc) → Buf (Elt Ideal) ((c : Thread nD τ).loc b)) (c : Dev nD)

/-- the block indices of region 1's windows at point t: block t of the rows for the input and the output, the one block of the bias -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the input's block at point t is row 10000 t + p of the input array. -/
theorem iblk1_0_apply (t : Fin cfg1.N) (p : Fin 10000) (j : Fin 64) (r : Fin 100000) (hr : r.val = t.val * 10000 + p.val) :
    (iblk1 V c 0 t : Vec Ideal S10000x64 .f32) (ix2 p j) = (V c main_v50 : S100000x64.Idx → Elt Ideal .f32) (ix2 r j) := by
  obtain ⟨e0, e1, -⟩ := idx_facts1 t
  unfold iblk1
  rw [View.read_apply]
  show V c main_v50 _ = V c main_v50 _
  congr 1
  funext a; apply Fin.ext
  match a with
  | ⟨0, _⟩ => show win1_0.index t 0 * 10000 + 1 * p.val = r.val; rw [e0, hr]; omega
  | ⟨1, _⟩ => show win1_0.index t 1 * 64 + 1 * j.val = j.val; rw [e1]; omega

/-- The bias window's one block is the bias recast as a row: its entry (0, j) is b j. -/
theorem iblk1_1_apply (t : Fin cfg1.N) (j : Fin 64) (b : (⟨S64, .f32⟩ : BufTy).Contents (Elt Ideal))
    (hb : V c main_v51 = shapeCast S1x64 b shapeCasts_S64_S1x64) :
    (iblk1 V c 1 t : Vec Ideal S1x64 .f32) (ix2 (0 : Fin 1) j) = b (ix1 j) := by
  obtain ⟨-, -, e2, e3, -⟩ := idx_facts1 t
  unfold iblk1
  rw [View.read_apply]
  show V c main_v51 _ = _
  rw [hb]
  refine shapeCast_apply b shapeCasts_S64_S1x64 _ (ix1 j) ?_
  rw [Shape.rowMajor_val_one, Shape.rowMajor_val_two]
  show j.val = (win1_1.index t 0 * 1 + 1 * 0) * 64 + (win1_1.index t 1 * 64 + 1 * j.val)
  rw [e2, e3]; omega

/-- An index of the output array is in point t's block iff each coordinate is in the block's range on its axis. -/
theorem mem_blk1_2 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v52).slice (win1_2.rect t)).set ↔ _
  rw [View.set_slice_whole, Rect.mem_set_unit]
  exact Iff.rfl

/-- what point t writes back is block t of the activation -/
theorem flushed1_eq (b : (⟨S64, .f32⟩ : BufTy).Contents (Elt Ideal))
    (hb : V c main_v51 = shapeCast S1x64 b shapeCasts_S64_S1x64) (t : Fin cfg1.N) :
    (dat1 (F := Ideal) V c).flushed 2 t = ((cfg1.win 2).blk t).view.read (Elt Ideal) (act1 (V c main_v50) b) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S1x64) zero_offsets]
  funext y
  have hp : (y 0).val < 10000 := Nat.lt_of_lt_of_le (y 0).isLt (win1_2.xsize_le (grid1.coords t) 0)
  have hj : (y 1).val < 64 := Nat.lt_of_lt_of_le (y 1).isLt (win1_2.xsize_le (grid1.coords t) 1)
  have hN : t.val < 10 := Nat.lt_of_lt_of_eq t.isLt N_1
  obtain ⟨-, -, -, -, e4, e5⟩ := idx_facts1 t
  refine (show _ = k1_pay1 (F := Ideal) (iblk1 V c 0 t) (iblk1 V c 1 t) (ix2 (⟨(y 0).val, hp⟩ : Fin 10000) (⟨(y 1).val, hj⟩ : Fin 64)) from ?_).trans
    ((k1_entry (iblk1 V c 0 t) (iblk1 V c 1 t) (V c main_v50) b ⟨(y 0).val, hp⟩ ⟨(y 1).val, hj⟩ ⟨t.val * 10000 + (y 0).val, by omega⟩
      (iblk1_0_apply V c t ⟨(y 0).val, hp⟩ ⟨(y 1).val, hj⟩ ⟨t.val * 10000 + (y 0).val, by omega⟩ rfl)
      (iblk1_1_apply V c t ⟨(y 1).val, hj⟩ b hb)).trans ?_)
  · exact congrArg (k1_pay1 (F := Ideal) (iblk1 V c 0 t) (iblk1 V c 1 t)) (funext fun a => match a with | ⟨0, _⟩ => rfl | ⟨1, _⟩ => rfl)
  · rw [View.read_apply]
    refine congrArg (act1 (V c main_v50) b) (funext fun a => Fin.ext ?_)
    match a with
    | ⟨0, _⟩ => show t.val * 10000 + (y 0).val = win1_2.index t 0 * 10000 + 1 * (y 0).val; rw [e4]; omega
    | ⟨1, _⟩ => show (y 1).val = win1_2.index t 1 * 64 + 1 * (y 1).val; rw [e5]; omega

/-- REGION 1: the output array ends as max(x + rows(b), 0); row r is covered by point r / 10000. -/
theorem region1_val (b : (⟨S64, .f32⟩ : BufTy).Contents (Elt Ideal))
    (hb : V c main_v51 = shapeCast S1x64 b shapeCasts_S64_S1x64) :
    @Eq ((⟨S100000x64, .f32⟩ : BufTy).Contents (Elt Ideal)) ((dat1 (F := Ideal) V c).arrAt 2 cfg1.N)
      (maximumf (F := Ideal) (φ := .f32) (addf (F := Ideal) (φ := .f32) (V c main_v50) (Cert.Spec.rows64 b)) Cert.Spec.zeros64) :=
  (dat1 (F := Ideal) V c).arrAt_eq_of_cover 2 (act1 (V c main_v50) b) (fun t _ => flushed1_eq V c b hb t) fun i => by
    have hi0 : (i 0).val < 100000 := (i 0).isLt
    have hi1 : (i 1).val < 64 := (i 1).isLt
    have hN : cfg1.N = 10 := N_1
    refine ⟨⟨(i 0).val / 10000, by rw [hN]; omega⟩, flush1_2 _, ?_⟩
    rw [mem_blk1_2]
    obtain ⟨-, -, -, -, e4, e5⟩ := idx_facts1 (⟨(i 0).val / 10000, by rw [hN]; omega⟩ : Fin cfg1.N)
    intro a
    match a with
    | ⟨0, _⟩ => show win1_2.index _ 0 * 10000 ≤ (i 0).val ∧ (i 0).val < win1_2.index _ 0 * 10000 + 10000; rw [e4]; show (i 0).val / 10000 * 10000 ≤ (i 0).val ∧ (i 0).val < (i 0).val / 10000 * 10000 + 10000; omega
    | ⟨1, _⟩ => show win1_2.index _ 1 * 64 ≤ (i 1).val ∧ (i 1).val < win1_2.index _ 1 * 64 + 64; rw [e5]; omega

end Region1

/-! ## Region 3: one normalisation, row by row -/

/-- A [1, 64] row broadcast over 10000 rows reads, at (p, j), the row's entry j. -/
theorem bias_row64_apply (x1 : Vec Ideal S1x64 .f32) (p : Fin 10000) (j : Fin 64) :
    broadcastTo S10000x64 x1 broadcasts_S1x64_S10000x64 (ix2 p j) = x1 (ix2 (0 : Fin 1) j) :=
  broadcastTo_apply x1 broadcasts_S1x64_S10000x64 (ix2 p j) (ix2 (0 : Fin 1) j) (fun a => match a with
    | ⟨0, _⟩ => by show 0 = if (1 : Nat) = 1 then 0 else _; rw [if_pos rfl]
    | ⟨1, _⟩ => by show j.val = if (64 : Nat) = 1 then 0 else j.val; rw [if_neg (by decide)])

/-- A [1, 16] row broadcast over 10000 rows reads, at (p, c), the row's entry c. -/
theorem bias_row16_apply (x3 : Vec Ideal S1x16 .f32) (p : Fin 10000) (c : Fin 16) :
    broadcastTo S10000x16 x3 broadcasts_S1x16_S10000x16 (ix2 p c) = x3 (ix2 (0 : Fin 1) c) :=
  broadcastTo_apply x3 broadcasts_S1x16_S10000x16 (ix2 p c) (ix2 (0 : Fin 1) c) (fun a => match a with
    | ⟨0, _⟩ => by show 0 = if (1 : Nat) = 1 then 0 else _; rw [if_pos rfl]
    | ⟨1, _⟩ => by show c.val = if (16 : Nat) = 1 then 0 else c.val; rw [if_neg (by decide)])

/-- A bias vector of length 16 laid along every row reads, at (r, c), the vector's entry c. -/
theorem rows16_apply (b : (⟨S16, .f32⟩ : BufTy).Contents (Elt Ideal)) (r : Fin 100000) (c : Fin 16) :
    Cert.Spec.rows16 b (ix2 r c) = b (ix1 c) := by
  unfold Cert.Spec.rows16
  refine (broadcastInDim_apply _ _ _ (ix2 r c) (ix2 (0 : Fin 1) c) (fun a => match a with
    | ⟨0, _⟩ => by show 0 = if (1 : Nat) = 1 then 0 else r.val; rw [if_pos rfl]
    | ⟨1, _⟩ => by show c.val = if (16 : Nat) = 1 then 0 else c.val; rw [if_neg (by decide)])).trans ?_
  exact broadcastInDim_apply _ _ b (ix2 (0 : Fin 1) c) (ix1 c) (fun a => match a with
    | ⟨0, _⟩ => by show c.val = if (16 : Nat) = 1 then 0 else c.val; rw [if_neg (by decide)])

/-- The divisor of a row of 64 entries: the larger of its Euclidean norm and ε. -/
def rowDiv (f : Fin 64 → EReal) : EReal :=
  max (Ideal.sqrt (∑ k : Fin 64, f k * f k)) (Ideal.ofBits .f32 0x2B8CBCCC#32)

/-- A row divided, entry by entry, by its divisor. -/
def rowNorm (f : Fin 64 → EReal) (j : Fin 64) : EReal := Ideal.div (f j) (rowDiv f)

/-- The host's quotient at an index is the extended reals' quotient of the entries. -/
theorem hostDivf_apply {s : Shape} (a b : FVec Ideal s .f32) (i : s.Idx) : Host.divf a b i = Ideal.div (a i) (b i) := rfl

/-- The host's root at an index is the extended reals' root of the entry. -/
theorem hostSqrt_apply {s : Shape} (a : FVec Ideal s .f32) (i : s.Idx) : Host.sqrt a i = Ideal.sqrt (a i) := rfl

/-- The host's normalisation at (r, j): entry j of row r, normalised. The sum of squares starts from the zero word,
    which is the real number zero. -/
theorem l2n_apply (x : (⟨S100000x64, .f32⟩ : BufTy).Contents (Elt Ideal)) (r : Fin 100000) (j : Fin 64) :
    Cert.Spec.l2n x (ix2 r j) = rowNorm (fun k => x (ix2 r k)) j := by
  unfold Cert.Spec.l2n rowNorm rowDiv
  refine (hostDivf_apply _ _ (ix2 r j)).trans ?_
  refine congrArg (Ideal.div (x (ix2 r j))) ?_
  refine (broadcastInDim_apply _ _ _ (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])).trans ?_
  refine (maximumf_apply _ _ (ix2 r (0 : Fin 1))).trans ?_
  refine congrArg₂ (fun u v : EReal => max u v) ?_ ?_
  · refine (hostSqrt_apply _ (ix2 r (0 : Fin 1))).trans (congrArg Ideal.sqrt ?_)
    refine (broadcastInDim_apply _ _ _ (ix2 r (0 : Fin 1)) (ix1 r) (fun a => match a with
      | ⟨0, _⟩ => by show r.val = if (100000 : Nat) = 1 then 0 else r.val; rw [if_neg (by decide)])).trans ?_
    simp only [Host.reduceAdd, Ideal.hostReduceAdd_def]
    rw [Ideal.hostReduceAdd_single Cert.ReferenceIdeal.Gen.reducesTo_S100000x64_S100000_d1 (by decide)]
    rw [constant_apply, Ideal.ofBits_zero_f32, zero_add]
    refine Finset.sum_congr rfl fun k _ => ?_
    show x _ * x _ = x (ix2 r k) * x (ix2 r k)
    exact congrArg (fun i => x i * x i) (funext fun a => Fin.ext (by match a with | ⟨0, _⟩ => rfl | ⟨1, _⟩ => rfl))
  · exact broadcastInDim_apply _ _ (constant (F := Ideal) Cert.ReferenceIdeal.S_ .f32 0x2B8CBCCC#32) (ix2 r (0 : Fin 1)) ix0 (fun a => a.elim0)

/-- Normalising twice, at (r, j). -/
theorem l2n_l2n_apply (x : (⟨S100000x64, .f32⟩ : BufTy).Contents (Elt Ideal)) (r : Fin 100000) (j : Fin 64) :
    Cert.Spec.l2n (Cert.Spec.l2n x) (ix2 r j) = rowNorm (rowNorm fun k => x (ix2 r k)) j :=
  (l2n_apply (Cert.Spec.l2n x) r j).trans (congrArg (fun f => rowNorm f j) (funext fun k => l2n_apply x r k))

/-- One normalisation of a block of 10000 rows, as the vector unit computes it: squares, the sum along each row, the
    column of sums, its root, the floor ε, the column laid along the rows, the quotient. -/
def blockNorm (v : FVec Ideal S10000x64 .f32) : FVec Ideal S10000x64 .f32 :=
  divf v (broadcastTo S10000x64
    (maximumf (sqrt (shapeCast S10000x1 (multiReduction (F := Ideal) .add [1] S10000 (mulf v v) 0x00000000#32 reduces_S10000x64_S10000 (.inl rfl) rfl) shapeCasts_S10000_S10000x1))
      (broadcast S10000x1 (Scalar.ofBits (F := Ideal) .f32 0x2B8CBCCC#32)))
    broadcasts_S10000x1_S10000x64)

/-- The block's normalisation at (p, j): entry j of row p, normalised. The row's sum is the lane sum, with no initial value. -/
theorem blockNorm_apply (v : FVec Ideal S10000x64 .f32) (p : Fin 10000) (j : Fin 64) :
    blockNorm v (ix2 p j) = rowNorm (fun k => v (ix2 p k)) j := by
  unfold blockNorm
  show Ideal.div (v (ix2 p j)) _ = Ideal.div (v (ix2 p j)) (rowDiv fun k => v (ix2 p k))
  refine congrArg (Ideal.div (v (ix2 p j))) ?_
  refine (Cert.Lib.Columns.broadcastTo_a1_ab_apply _ broadcasts_S10000x1_S10000x64 p j).trans ?_
  show max (Ideal.sqrt _) _ = max (Ideal.sqrt (∑ k : Fin 64, v (ix2 p k) * v (ix2 p k))) (Ideal.ofBits .f32 0x2B8CBCCC#32)
  refine congrArg (fun u : EReal => max (Ideal.sqrt u) (Ideal.ofBits .f32 0x2B8CBCCC#32)) ?_
  refine (Cert.Lib.Columns.shapeCast_a_a1_apply _ shapeCasts_S10000_S10000x1 p).trans ?_
  refine (Ideal.multiReduction_add_single (mulf v v) 0x00000000#32 reduces_S10000x64_S10000 (.inl rfl) rfl (ix1 p)).trans ?_
  refine Finset.sum_congr rfl fun k _ => ?_
  show v _ * v _ = v (ix2 p k) * v (ix2 p k)
  exact congrArg (fun i => v i * v i) (funext fun a => Fin.ext (by match a with | ⟨0, _⟩ => rfl | ⟨1, _⟩ => rfl))

/-- Region 3's first payload is the block plus the bias row, normalised twice. -/
theorem k3_pay1_eq (x0 : Vec Ideal S10000x64 .f32) (x1 : Vec Ideal S1x64 .f32) :
    k3_pay1 (F := Ideal) x0 x1 = blockNorm (blockNorm (addf x0 (broadcastTo S10000x64 x1 broadcasts_S1x64_S10000x64))) := by
  unfold k3_pay1 blockNorm
  rw [shapeCast_self, shapeCast_self]

/-- Region 3's first payload at (p, j). -/
theorem k3_pay1_apply (x0 : Vec Ideal S10000x64 .f32) (x1 : Vec Ideal S1x64 .f32) (p : Fin 10000) (j : Fin 64) :
    k3_pay1 (F := Ideal) x0 x1 (ix2 p j) = rowNorm (rowNorm fun k => x0 (ix2 p k) + x1 (ix2 (0 : Fin 1) k)) j := by
  rw [k3_pay1_eq]
  refine (blockNorm_apply _ p j).trans (congrArg (fun f => rowNorm f j) (funext fun k => ?_))
  refine (blockNorm_apply _ p k).trans (congrArg (fun f => rowNorm f k) (funext fun k' => ?_))
  show x0 (ix2 p k') + broadcastTo S10000x64 x1 broadcasts_S1x64_S10000x64 (ix2 p k') = _
  rw [bias_row64_apply]

/-- One entry of a block's first payload is the twice-normalised array's entry, when the block's row is the array's row
    and the block's bias row is the bias. -/
theorem k3_rep_entry (x0 : Vec Ideal S10000x64 .f32) (x1 : Vec Ideal S1x64 .f32)
    (x : (⟨S100000x64, .f32⟩ : BufTy).Contents (Elt Ideal)) (b : (⟨S64, .f32⟩ : BufTy).Contents (Elt Ideal))
    (p : Fin 10000) (j : Fin 64) (r : Fin 100000)
    (h0 : ∀ k : Fin 64, x0 (ix2 p k) = x (ix2 r k)) (h1 : ∀ k : Fin 64, x1 (ix2 (0 : Fin 1) k) = b (ix1 k)) :
    k3_pay1 (F := Ideal) x0 x1 (ix2 p j)
      = Cert.Spec.l2n (Cert.Spec.l2n (addf (F := Ideal) (φ := .f32) x (Cert.Spec.rows64 b))) (ix2 r j) := by
  rw [k3_pay1_apply, l2n_l2n_apply]
  refine congrArg (fun f => rowNorm (rowNorm f) j) (funext fun k => ?_)
  show _ = x (ix2 r k) + Cert.Spec.rows64 b (ix2 r k)
  rw [h0 k, h1 k, rows64_apply]

/-- The kernel's and the host's dimension numbers are the plain ones: rows × 64 times 64 × 16. -/
theorem dot_block_plain : dot_S10000x64_S64x16_S10000x16_1_0_0_1_n_n = DotDims.plain 10000 64 16 := rfl
theorem dot_whole_plain : Cert.ReferenceIdeal.dot_S100000x64_S64x16_S100000x16_1_0_0_1_n_n = DotDims.plain 100000 64 16 := rfl

/-- One entry of a block's second payload is the class head's entry: the products of row r of the twice-normalised
    array with column c of the matrix, summed, plus entry c of the second bias. -/
theorem k3_y_entry (x0 : Vec Ideal S10000x64 .f32) (x1 : Vec Ideal S1x64 .f32) (x2 : Vec Ideal S64x16 .f32) (x3 : Vec Ideal S1x16 .f32)
    (x : (⟨S100000x64, .f32⟩ : BufTy).Contents (Elt Ideal)) (b : (⟨S64, .f32⟩ : BufTy).Contents (Elt Ideal))
    (w : (⟨S64x16, .f32⟩ : BufTy).Contents (Elt Ideal)) (b' : (⟨S16, .f32⟩ : BufTy).Contents (Elt Ideal))
    (p : Fin 10000) (c : Fin 16) (r : Fin 100000)
    (h0 : ∀ k : Fin 64, x0 (ix2 p k) = x (ix2 r k)) (h1 : ∀ k : Fin 64, x1 (ix2 (0 : Fin 1) k) = b (ix1 k))
    (h2 : ∀ k : Fin 64, x2 (ix2 k c) = w (ix2 k c)) (h3 : x3 (ix2 (0 : Fin 1) c) = b' (ix1 c)) :
    k3_pay2 (F := Ideal) x0 x1 x2 x3 (ix2 p c)
      = addf (F := Ideal) (φ := .f32) (Host.dotGeneral (F := Ideal) (φ₁ := .f32) (φ₂ := .f32) Cert.ReferenceIdeal.dot_S100000x64_S64x16_S100000x16_1_0_0_1_n_n none
          (Cert.Spec.l2n (Cert.Spec.l2n (addf (F := Ideal) (φ := .f32) x (Cert.Spec.rows64 b)))) w)
        (Cert.Spec.rows16 b') (ix2 r c) := by
  unfold k3_pay2
  rw [shapeCast_self, dot_block_plain, dot_whole_plain]
  show matmul (DotDims.plain 10000 64 16) none (k3_pay1 (F := Ideal) x0 x1) x2 (constant (F := Ideal) ⟨2, ![10000, 16]⟩ .f32 0x00000000#32) (ix2 p c)
      + broadcastTo S10000x16 x3 broadcasts_S1x16_S10000x16 (ix2 p c)
    = Host.dotGeneral (DotDims.plain 100000 64 16) none (Cert.Spec.l2n (Cert.Spec.l2n (addf (F := Ideal) (φ := .f32) x (Cert.Spec.rows64 b)))) w (ix2 r c)
      + Cert.Spec.rows16 b' (ix2 r c)
  rw [rows16_apply, bias_row16_apply, h3]
  refine congrArg (· + b' (ix1 c)) ?_
  exact Cert.Lib.RowBlocks.matmul_rows_eq_dotGeneral none none _ w (k3_pay1 (F := Ideal) x0 x1) x2 p r c
    (fun k => k3_rep_entry x0 x1 x b p k r h0 h1) h2

/-! ## Region 3: from blocks to the arrays -/

section Region3
variable (V : (c : Dev nD) → (b : Ref sig .tc) → Buf (Elt Ideal) ((c : Thread nD τ).loc b)) (c : Dev nD)

/-- The block indices of region 3's windows at point t: block t of the rows for the input and the two outputs, the one
    block of each bias and of the matrix. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Row p of the input's block at point t is row 10000 t + p of the input array. -/
theorem iblk3_0_apply (t : Fin cfg3.N) (p : Fin 10000) (j : Fin 64) (r : Fin 100000) (hr : r.val = t.val * 10000 + p.val) :
    (iblk3 V c 0 t : Vec Ideal S10000x64 .f32) (ix2 p j) = (V c main_v66 : S100000x64.Idx → Elt Ideal .f32) (ix2 r j) := by
  obtain ⟨e0, e1, -⟩ := idx_facts3 t
  unfold iblk3
  rw [View.read_apply]
  show V c main_v66 _ = V c main_v66 _
  congr 1
  funext a; apply Fin.ext
  match a with
  | ⟨0, _⟩ => show win3_0.index t 0 * 10000 + 1 * p.val = r.val; rw [e0, hr]; omega
  | ⟨1, _⟩ => show win3_0.index t 1 * 64 + 1 * j.val = j.val; rw [e1]; omega

/-- The first bias window's one block is the bias recast as a row: its entry (0, j) is b j. -/
theorem iblk3_1_apply (t : Fin cfg3.N) (j : Fin 64) (b : (⟨S64, .f32⟩ : BufTy).Contents (Elt Ideal))
    (hb : V c main_v67 = shapeCast S1x64 b shapeCasts_S64_S1x64) :
    (iblk3 V c 1 t : Vec Ideal S1x64 .f32) (ix2 (0 : Fin 1) j) = b (ix1 j) := by
  obtain ⟨-, -, e2, e3, -⟩ := idx_facts3 t
  unfold iblk3
  rw [View.read_apply]
  show V c main_v67 _ = _
  rw [hb]
  refine shapeCast_apply b shapeCasts_S64_S1x64 _ (ix1 j) ?_
  rw [Shape.rowMajor_val_one, Shape.rowMajor_val_two]
  show j.val = (win3_1.index t 0 * 1 + 1 * 0) * 64 + (win3_1.index t 1 * 64 + 1 * j.val)
  rw [e2, e3]; omega

/-- The matrix window's one block is the matrix. -/
theorem iblk3_2_apply (t : Fin cfg3.N) (k : Fin 64) (q : Fin 16) :
    (iblk3 V c 2 t : Vec Ideal S64x16 .f32) (ix2 k q) = (V c main_arg6 : S64x16.Idx → Elt Ideal .f32) (ix2 k q) := by
  obtain ⟨-, -, -, -, e4, e5, -⟩ := idx_facts3 t
  unfold iblk3
  rw [View.read_apply]
  show V c main_arg6 _ = V c main_arg6 _
  congr 1
  funext a; apply Fin.ext
  match a with
  | ⟨0, _⟩ => show win3_2.index t 0 * 64 + 1 * k.val = k.val; rw [e4]; omega
  | ⟨1, _⟩ => show win3_2.index t 1 * 16 + 1 * q.val = q.val; rw [e5]; omega

/-- The second bias window's one block is that bias recast as a row: its entry (0, q) is b' q. -/
theorem iblk3_3_apply (t : Fin cfg3.N) (q : Fin 16) (b' : (⟨S16, .f32⟩ : BufTy).Contents (Elt Ideal))
    (hb' : V c main_v68 = shapeCast S1x16 b' shapeCasts_S16_S1x16) :
    (iblk3 V c 3 t : Vec Ideal S1x16 .f32) (ix2 (0 : Fin 1) q) = b' (ix1 q) := by
  obtain ⟨-, -, -, -, -, -, e6, e7, -⟩ := idx_facts3 t
  unfold iblk3
  rw [View.read_apply]
  show V c main_v68 _ = _
  rw [hb']
  refine shapeCast_apply b' shapeCasts_S16_S1x16 _ (ix1 q) ?_
  rw [Shape.rowMajor_val_one, Shape.rowMajor_val_two]
  show q.val = (win3_3.index t 0 * 1 + 1 * 0) * 16 + (win3_3.index t 1 * 16 + 1 * q.val)
  rw [e6, e7]; omega

/-- An index of the first output array is in point t's block iff each coordinate is in the block's range on its axis. -/
theorem mem_blk3_4 (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v69_0).slice (win3_4.rect t)).set ↔ _
  rw [View.set_slice_whole, Rect.mem_set_unit]
  exact Iff.rfl

/-- The same for the second output array. -/
theorem mem_blk3_5 (t : Fin cfg3.N) (i : S100000x16.Idx) :
    i ∈ ((cfg3.win 5).blk t).view.set ↔ ∀ a : Fin 2, win3_5.index t a * S10000x16.size a ≤ (i a).val ∧ (i a).val < win3_5.index t a * S10000x16.size a + S10000x16.size a := by
  show i ∈ ((View.whole main_v69_1).slice (win3_5.rect t)).set ↔ _
  rw [View.set_slice_whole, Rect.mem_set_unit]
  exact Iff.rfl

/-- What point t writes back to the first output is block t of the twice-normalised array. -/
theorem flushed3_4_eq (b : (⟨S64, .f32⟩ : BufTy).Contents (Elt Ideal))
    (hb : V c main_v67 = shapeCast S1x64 b shapeCasts_S64_S1x64) (t : Fin cfg3.N) :
    (dat3 (F := Ideal) V c).flushed 4 t = ((cfg3.win 4).blk t).view.read (Elt Ideal)
      (Cert.Spec.l2n (Cert.Spec.l2n (addf (F := Ideal) (φ := .f32) (V c main_v66) (Cert.Spec.rows64 b)))) := by
  show (cfg3.win 4).cut (grid3.coords t) ((dat3 V c).after 4 t) = _
  rw [after3_4]
  unfold out3_4
  rw [View.canon_unit_zero zero_offsets]
  simp only [View.ld_unit_zero (S := S10000x64) zero_offsets, View.ld_unit_zero (S := S1x64) zero_offsets]
  funext y
  have hp : (y 0).val < 10000 := Nat.lt_of_lt_of_le (y 0).isLt (win3_4.xsize_le (grid3.coords t) 0)
  have hj : (y 1).val < 64 := Nat.lt_of_lt_of_le (y 1).isLt (win3_4.xsize_le (grid3.coords t) 1)
  have hN : t.val < 10 := Nat.lt_of_lt_of_eq t.isLt N_3
  obtain ⟨-, -, -, -, -, -, -, -, e8, e9, -⟩ := idx_facts3 t
  refine (show _ = k3_pay1 (F := Ideal) (iblk3 V c 0 t) (iblk3 V c 1 t) (ix2 (⟨(y 0).val, hp⟩ : Fin 10000) (⟨(y 1).val, hj⟩ : Fin 64)) from ?_).trans
    ((k3_rep_entry (iblk3 V c 0 t) (iblk3 V c 1 t) (V c main_v66) b ⟨(y 0).val, hp⟩ ⟨(y 1).val, hj⟩ ⟨t.val * 10000 + (y 0).val, by omega⟩
      (fun k => iblk3_0_apply V c t ⟨(y 0).val, hp⟩ k ⟨t.val * 10000 + (y 0).val, by omega⟩ rfl)
      (fun k => iblk3_1_apply V c t k b hb)).trans ?_)
  · exact congrArg (k3_pay1 (F := Ideal) (iblk3 V c 0 t) (iblk3 V c 1 t)) (funext fun a => match a with | ⟨0, _⟩ => rfl | ⟨1, _⟩ => rfl)
  · rw [View.read_apply]
    refine congrArg (Cert.Spec.l2n (Cert.Spec.l2n (addf (F := Ideal) (φ := .f32) (V c main_v66) (Cert.Spec.rows64 b)))) (funext fun a => Fin.ext ?_)
    match a with
    | ⟨0, _⟩ => show t.val * 10000 + (y 0).val = win3_4.index t 0 * 10000 + 1 * (y 0).val; rw [e8]; omega
    | ⟨1, _⟩ => show (y 1).val = win3_4.index t 1 * 64 + 1 * (y 1).val; rw [e9]; omega

/-- REGION 3, first output: the rows of x + rows(b), normalised twice; row r is covered by point r / 10000. -/
theorem region3_rep (b : (⟨S64, .f32⟩ : BufTy).Contents (Elt Ideal))
    (hb : V c main_v67 = shapeCast S1x64 b shapeCasts_S64_S1x64) :
    @Eq ((⟨S100000x64, .f32⟩ : BufTy).Contents (Elt Ideal)) ((dat3 (F := Ideal) V c).arrAt 4 cfg3.N)
      (Cert.Spec.l2n (Cert.Spec.l2n (addf (F := Ideal) (φ := .f32) (V c main_v66) (Cert.Spec.rows64 b)))) :=
  (dat3 (F := Ideal) V c).arrAt_eq_of_cover 4
    (Cert.Spec.l2n (Cert.Spec.l2n (addf (F := Ideal) (φ := .f32) (V c main_v66) (Cert.Spec.rows64 b))))
    (fun t _ => flushed3_4_eq V c b hb t) fun i => by
    have hi0 : (i 0).val < 100000 := (i 0).isLt
    have hi1 : (i 1).val < 64 := (i 1).isLt
    have hN : cfg3.N = 10 := N_3
    refine ⟨⟨(i 0).val / 10000, by rw [hN]; omega⟩, flush3_4 _, ?_⟩
    rw [mem_blk3_4]
    obtain ⟨-, -, -, -, -, -, -, -, e8, e9, -⟩ := idx_facts3 (⟨(i 0).val / 10000, by rw [hN]; omega⟩ : Fin cfg3.N)
    intro a
    match a with
    | ⟨0, _⟩ => show win3_4.index _ 0 * 10000 ≤ (i 0).val ∧ (i 0).val < win3_4.index _ 0 * 10000 + 10000; rw [e8]; show (i 0).val / 10000 * 10000 ≤ (i 0).val ∧ (i 0).val < (i 0).val / 10000 * 10000 + 10000; omega
    | ⟨1, _⟩ => show win3_4.index _ 1 * 64 ≤ (i 1).val ∧ (i 1).val < win3_4.index _ 1 * 64 + 64; rw [e9]; omega

/-- What point t writes back to the second output is block t of the class head. -/
theorem flushed3_5_eq (b : (⟨S64, .f32⟩ : BufTy).Contents (Elt Ideal)) (b' : (⟨S16, .f32⟩ : BufTy).Contents (Elt Ideal))
    (hb : V c main_v67 = shapeCast S1x64 b shapeCasts_S64_S1x64)
    (hb' : V c main_v68 = shapeCast S1x16 b' shapeCasts_S16_S1x16) (t : Fin cfg3.N) :
    (dat3 (F := Ideal) V c).flushed 5 t = ((cfg3.win 5).blk t).view.read (Elt Ideal)
      (addf (F := Ideal) (φ := .f32) (Host.dotGeneral (F := Ideal) (φ₁ := .f32) (φ₂ := .f32) Cert.ReferenceIdeal.dot_S100000x64_S64x16_S100000x16_1_0_0_1_n_n none
          (Cert.Spec.l2n (Cert.Spec.l2n (addf (F := Ideal) (φ := .f32) (V c main_v66) (Cert.Spec.rows64 b)))) (V c main_arg6))
        (Cert.Spec.rows16 b')) := by
  show (cfg3.win 5).cut (grid3.coords t) ((dat3 V c).after 5 t) = _
  rw [after3_5]
  unfold out3_5
  rw [View.canon_unit_zero zero_offsets]
  simp only [View.ld_unit_zero (S := S10000x64) zero_offsets, View.ld_unit_zero (S := S1x64) zero_offsets,
    View.ld_unit_zero (S := S64x16) zero_offsets, View.ld_unit_zero (S := S1x16) zero_offsets]
  funext y
  have hp : (y 0).val < 10000 := Nat.lt_of_lt_of_le (y 0).isLt (win3_5.xsize_le (grid3.coords t) 0)
  have hq : (y 1).val < 16 := Nat.lt_of_lt_of_le (y 1).isLt (win3_5.xsize_le (grid3.coords t) 1)
  have hN : t.val < 10 := Nat.lt_of_lt_of_eq t.isLt N_3
  obtain ⟨-, -, -, -, -, -, -, -, -, -, e10, e11⟩ := idx_facts3 t
  refine (show _ = k3_pay2 (F := Ideal) (iblk3 V c 0 t) (iblk3 V c 1 t) (iblk3 V c 2 t) (iblk3 V c 3 t) (ix2 (⟨(y 0).val, hp⟩ : Fin 10000) (⟨(y 1).val, hq⟩ : Fin 16)) from ?_).trans
    ((k3_y_entry (iblk3 V c 0 t) (iblk3 V c 1 t) (iblk3 V c 2 t) (iblk3 V c 3 t) (V c main_v66) b (V c main_arg6) b'
      ⟨(y 0).val, hp⟩ ⟨(y 1).val, hq⟩ ⟨t.val * 10000 + (y 0).val, by omega⟩
      (fun k => iblk3_0_apply V c t ⟨(y 0).val, hp⟩ k ⟨t.val * 10000 + (y 0).val, by omega⟩ rfl)
      (fun k => iblk3_1_apply V c t k b hb)
      (fun k => iblk3_2_apply V c t k ⟨(y 1).val, hq⟩)
      (iblk3_3_apply V c t ⟨(y 1).val, hq⟩ b' hb')).trans ?_)
  · exact congrArg (k3_pay2 (F := Ideal) (iblk3 V c 0 t) (iblk3 V c 1 t) (iblk3 V c 2 t) (iblk3 V c 3 t)) (funext fun a => match a with | ⟨0, _⟩ => rfl | ⟨1, _⟩ => rfl)
  · rw [View.read_apply]
    refine congrArg (addf (F := Ideal) (φ := .f32) (Host.dotGeneral (F := Ideal) (φ₁ := .f32) (φ₂ := .f32) Cert.ReferenceIdeal.dot_S100000x64_S64x16_S100000x16_1_0_0_1_n_n none
          (Cert.Spec.l2n (Cert.Spec.l2n (addf (F := Ideal) (φ := .f32) (V c main_v66) (Cert.Spec.rows64 b)))) (V c main_arg6))
        (Cert.Spec.rows16 b')) (funext fun a => Fin.ext ?_)
    match a with
    | ⟨0, _⟩ => show t.val * 10000 + (y 0).val = win3_5.index t 0 * 10000 + 1 * (y 0).val; rw [e10]; omega
    | ⟨1, _⟩ => show (y 1).val = win3_5.index t 1 * 16 + 1 * (y 1).val; rw [e11]; omega

/-- REGION 3, second output: the twice-normalised rows times the matrix, plus rows(b'); row r is covered by point r / 10000. -/
theorem region3_y (b : (⟨S64, .f32⟩ : BufTy).Contents (Elt Ideal)) (b' : (⟨S16, .f32⟩ : BufTy).Contents (Elt Ideal))
    (hb : V c main_v67 = shapeCast S1x64 b shapeCasts_S64_S1x64)
    (hb' : V c main_v68 = shapeCast S1x16 b' shapeCasts_S16_S1x16) :
    @Eq ((⟨S100000x16, .f32⟩ : BufTy).Contents (Elt Ideal)) ((dat3 (F := Ideal) V c).arrAt 5 cfg3.N)
      (addf (F := Ideal) (φ := .f32) (Host.dotGeneral (F := Ideal) (φ₁ := .f32) (φ₂ := .f32) Cert.ReferenceIdeal.dot_S100000x64_S64x16_S100000x16_1_0_0_1_n_n none
          (Cert.Spec.l2n (Cert.Spec.l2n (addf (F := Ideal) (φ := .f32) (V c main_v66) (Cert.Spec.rows64 b)))) (V c main_arg6))
        (Cert.Spec.rows16 b')) :=
  (dat3 (F := Ideal) V c).arrAt_eq_of_cover 5
    (addf (F := Ideal) (φ := .f32) (Host.dotGeneral (F := Ideal) (φ₁ := .f32) (φ₂ := .f32) Cert.ReferenceIdeal.dot_S100000x64_S64x16_S100000x16_1_0_0_1_n_n none
          (Cert.Spec.l2n (Cert.Spec.l2n (addf (F := Ideal) (φ := .f32) (V c main_v66) (Cert.Spec.rows64 b)))) (V c main_arg6))
        (Cert.Spec.rows16 b'))
    (fun t _ => flushed3_5_eq V c b b' hb hb' t) fun i => by
    have hi0 : (i 0).val < 100000 := (i 0).isLt
    have hi1 : (i 1).val < 16 := (i 1).isLt
    have hN : cfg3.N = 10 := N_3
    refine ⟨⟨(i 0).val / 10000, by rw [hN]; omega⟩, flush3_5 _, ?_⟩
    rw [mem_blk3_5]
    obtain ⟨-, -, -, -, -, -, -, -, -, -, e10, e11⟩ := idx_facts3 (⟨(i 0).val / 10000, by rw [hN]; omega⟩ : Fin cfg3.N)
    intro a
    match a with
    | ⟨0, _⟩ => show win3_5.index _ 0 * 10000 ≤ (i 0).val ∧ (i 0).val < win3_5.index _ 0 * 10000 + 10000; rw [e10]; show (i 0).val / 10000 * 10000 ≤ (i 0).val ∧ (i 0).val < (i 0).val / 10000 * 10000 + 10000; omega
    | ⟨1, _⟩ => show win3_5.index _ 1 * 16 ≤ (i 1).val ∧ (i 1).val < win3_5.index _ 1 * 16 + 16; rw [e11]; omega

end Region3

end Cert.KernelIdeal.RegionAct

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.HostK.lean ====
/- The host stretches of the kernel program before regions 0, 1 and 3, read at the reference's stage values:
   each stretch of array glue (edge-list slices, self-loops appended, degree by scatter-add, rsqrt under a where,
   gathers, a scale, a scatter-add) leaves in its output buffer the value the reference computes at the same stage. -/
import proofs.«159260_j58506044506633_2_alg».proof.Proof.Gen.KernelIdeal.Launch
import proofs.«159260_j58506044506633_2_alg».proof.Proof.RefRead
import proofs.«159260_j58506044506633_2_alg».proof.Proof.LibAfterAppend
import Idealize.ShloMosaic.Lib.StableHlo.Run

set_option maxRecDepth 16384

noncomputable section

namespace Cert.KernelIdeal.HostK

open Idealize.ShloMosaic Idealize.ShloMosaic.TcCoe Idealize.SL.Sem
open Cert.KernelIdeal Cert.KernelIdeal.Gen
open Cert.ReferenceIdeal.ReadP
open Idealize.ShloMosaic.StableHlo (after_cons after_nil)

variable (W : Valuation τ sig (Elt Ideal))
variable (x0 x1 : (⟨S100000x128, .f32⟩ : BufTy).Contents (Elt Ideal)) (x2 : (⟨S128x64, .f32⟩ : BufTy).Contents (Elt Ideal))
  (x3 : (⟨S64, .f32⟩ : BufTy).Contents (Elt Ideal)) (x4 : (⟨S64x64, .f32⟩ : BufTy).Contents (Elt Ideal))
  (x5 : (⟨S64, .f32⟩ : BufTy).Contents (Elt Ideal)) (x8 x9 : (⟨S2x1600000, .i32⟩ : BufTy).Contents (Elt Ideal))

/-- reads the operands left inside a concatenate's operand list: each operation's result at its own buffer is its
    function's value, and at any other buffer what was there -/
local macro "walk_rest" : tactic => `(tactic| repeat (first
  | rw [StableHlo.nullary_result] | rw [StableHlo.unary_result] | rw [StableHlo.binary_result]
  | rw [StableHlo.ternary_result] | rw [StableHlo.reshape_result]
  | (rw [StableHlo.nullary_result_ne]; rotate_left; decide)
  | (rw [StableHlo.unary_result_ne]; rotate_left; decide)
  | (rw [StableHlo.binary_result_ne]; rotate_left; decide)
  | (rw [StableHlo.ternary_result_ne]; rotate_left; decide)
  | (rw [StableHlo.reshape_result_ne]; rotate_left; decide)))

/-- the bias of layer 1 reaches region 1 as a one-row matrix -/
theorem s1_v51 (h3 : W (Proc.devRef .tc main_arg3) = x3) :
    StableHlo.after hostOps1 W (Proc.devRef .tc main_v51) = shapeCast S1x64 x3 shapeCasts_S64_S1x64 := by
  show StableHlo.after hostOps1 W _ = _
  after_results_simp
  rw [h3]; rfl

/-- the bias of layer 2 reaches region 3 as a one-row matrix -/
theorem s3_v67 (h5 : W (Proc.devRef .tc main_arg5) = x5) :
    StableHlo.after hostOps3 W (Proc.devRef .tc main_v67) = shapeCast S1x64 x5 shapeCasts_S64_S1x64 := by
  show StableHlo.after hostOps3 W _ = _
  after_results_simp
  rw [h5]; rfl

/-- the bias of the class head reaches region 3 as a one-row matrix -/
theorem s3_v68 (x7 : (⟨S16, .f32⟩ : BufTy).Contents (Elt Ideal)) (h7 : W (Proc.devRef .tc main_arg7) = x7) :
    StableHlo.after hostOps3 W (Proc.devRef .tc main_v68) = shapeCast S1x16 x7 shapeCasts_S16_S1x16 := by
  show StableHlo.after hostOps3 W _ = _
  after_results_simp
  rw [h7]; rfl

set_option maxHeartbeats 400000 in
/-- the aggregation of layer 1: the rows of x·W1 gathered along the edges, scaled by the edge weights and
    scatter-added to the target nodes -/
theorem s1_v50 (h37 : W (Proc.devRef .tc main_v37) = val_main_v5 (F := Ideal) x0 x2)
    (h10 : W (Proc.devRef .tc main_v10) = val_main_v7 (F := Ideal) x8) (h11 : W (Proc.devRef .tc main_v11) = val_main_v8 (F := Ideal) x8)
    (h36 : W (Proc.devRef .tc main_v36) = val_main_v33 (F := Ideal) x8) :
    StableHlo.after hostOps1 W (Proc.devRef .tc main_v50) = val_main_v46 (F := Ideal) x0 x2 x8 := by
  show StableHlo.after hostOps1 W _ = _
  after_results_simp
  rw [h37, h10, h11, h36]
  simp only [val_main_v46, val_main_v44, val_main_v45, val_main_v43, val_main_v40, val_main_v39, val_main_v38, val_main_v35,
    val_main_v34, val_main_v37, val_main_v36, val_main_v42, val_main_v41, val_main_cst_9, val_main_c_7, val_main_c_8]
  rfl

/-! The reference computes the self-looped edge lists and the edge weights a second time for layer 2, from
    constant buffers of the same contents: the second copies are the first ones. -/

theorem v53_eq : val_main_v53 (F := Ideal) x8 = val_main_v7 (F := Ideal) x8 := by
  simp only [val_main_v53, val_main_v7, val_main_v52, val_main_v6]

theorem v54_eq : val_main_v54 (F := Ideal) x8 = val_main_v8 (F := Ideal) x8 := by
  simp only [val_main_v54, val_main_v8, val_main_v52, val_main_v6]

theorem v79_eq : val_main_v79 (F := Ideal) x8 = val_main_v33 (F := Ideal) x8 := by
  simp only [val_main_v79, val_main_v71, val_main_v78, val_main_v70, val_main_v77, val_main_v76, val_main_v73, val_main_v75,
    val_main_v72, val_main_v74, val_main_v69, val_main_v68, val_main_v65, val_main_v67, val_main_v64, val_main_v66,
    val_main_v63, val_main_v61, val_main_v62, val_main_v60, val_main_v59, val_main_v58, val_main_v57, val_main_v56,
    val_main_v55, val_main_call2_v1, val_main_call2_v0, v53_eq, v54_eq,
    val_main_cst_10, val_main_cst_11, val_main_cst_12, val_main_cst_13, val_main_c_14, val_main_c_15, val_main_c_16, val_main_c_17,
    val_main_v33, val_main_v25, val_main_v32, val_main_v24, val_main_v31, val_main_v30, val_main_v27, val_main_v29,
    val_main_v26, val_main_v28, val_main_v23, val_main_v22, val_main_v19, val_main_v21, val_main_v18, val_main_v20,
    val_main_v17, val_main_v15, val_main_v16, val_main_v14, val_main_v13, val_main_v12, val_main_v11, val_main_v10,
    val_main_v9, val_main_call0_v1, val_main_call0_v0,
    val_main_cst_0, val_main_cst_1, val_main_cst_2, val_main_cst_3, val_main_c, val_main_c_4, val_main_c_5, val_main_c_6]

set_option maxHeartbeats 400000 in
/-- the aggregation of layer 2: the rows of h·W2 gathered along the edges, scaled by the edge weights and
    scatter-added to the target nodes -/
theorem s3_v66 (h53 : W (Proc.devRef .tc main_v53) = val_main_v51 (F := Ideal) x0 x2 x3 x4 x8)
    (h10 : W (Proc.devRef .tc main_v10) = val_main_v7 (F := Ideal) x8) (h11 : W (Proc.devRef .tc main_v11) = val_main_v8 (F := Ideal) x8)
    (h36 : W (Proc.devRef .tc main_v36) = val_main_v33 (F := Ideal) x8) :
    StableHlo.after hostOps3 W (Proc.devRef .tc main_v66) = val_main_v92 (F := Ideal) x0 x2 x3 x4 x8 := by
  show StableHlo.after hostOps3 W _ = _
  after_results_simp
  rw [h53, h10, h11, h36]
  simp only [val_main_v92, val_main_v90, val_main_v91, val_main_v89, val_main_v86, val_main_v85, val_main_v84, val_main_v81,
    val_main_v80, val_main_v83, val_main_v82, val_main_v88, val_main_v87, val_main_cst_20, val_main_c_18, val_main_c_19,
    v53_eq, v54_eq, v79_eq]
  rfl

/-! ## The three stretches before region 0, one at a time, from any valuation -/

/-! ### The first stretch: the edge lists sliced, the self-loops appended, the degree and its inverse square root -/

theorem a_v1 (h8 : W (Proc.devRef .tc main_arg8) = x8) :
    StableHlo.after hostOps0 W (Proc.devRef .tc main_v1) = val_main_v1 (F := Ideal) x8 := by
  show StableHlo.after hostOps0 W _ = _
  after_results_simp
  rw [h8]; rfl

theorem a_v3 (h8 : W (Proc.devRef .tc main_arg8) = x8) :
    StableHlo.after hostOps0 W (Proc.devRef .tc main_v3) = val_main_v3 (F := Ideal) x8 := by
  show StableHlo.after hostOps0 W _ = _
  after_results_simp
  rw [h8]; rfl

theorem a_v5 (h9 : W (Proc.devRef .tc main_arg9) = x9) :
    StableHlo.after hostOps0 W (Proc.devRef .tc main_v5) = val_main_v111 (F := Ideal) x9 := by
  show StableHlo.after hostOps0 W _ = _
  after_results_simp
  rw [h9]; rfl

theorem a_v7 (h9 : W (Proc.devRef .tc main_arg9) = x9) :
    StableHlo.after hostOps0 W (Proc.devRef .tc main_v7) = val_main_v113 (F := Ideal) x9 := by
  show StableHlo.after hostOps0 W _ = _
  after_results_simp
  rw [h9]; rfl

set_option maxHeartbeats 400000 in
theorem a_v10 (h8 : W (Proc.devRef .tc main_arg8) = x8) :
    StableHlo.after hostOps0 W (Proc.devRef .tc main_v10) = val_main_v7 (F := Ideal) x8 := by
  show StableHlo.after hostOps0 W _ = _
  after_results_simp
  walk_rest
  rw [h8]
  simp only [val_main_v7, val_main_v1, val_main_v0, val_main_v6]
  rfl

set_option maxHeartbeats 400000 in
theorem a_v11 (h8 : W (Proc.devRef .tc main_arg8) = x8) :
    StableHlo.after hostOps0 W (Proc.devRef .tc main_v11) = val_main_v8 (F := Ideal) x8 := by
  show StableHlo.after hostOps0 W _ = _
  after_results_simp
  walk_rest
  rw [h8]
  simp only [val_main_v8, val_main_v3, val_main_v2, val_main_v6]
  rfl

set_option maxHeartbeats 400000 in
theorem a_v13 : StableHlo.after hostOps0 W (Proc.devRef .tc main_v13) = val_main_v10 (F := Ideal) := by
  show StableHlo.after hostOps0 W _ = _
  after_results_simp
  walk_rest
  simp only [val_main_v10, val_main_v4, val_main_v9, val_main_cst, val_main_cst_0] <;> rfl

set_option maxHeartbeats 400000 in
theorem a_v18 (h8 : W (Proc.devRef .tc main_arg8) = x8) :
    StableHlo.after hostOps0 W (Proc.devRef .tc main_v18) = val_main_v15 (F := Ideal) x8 := by
  show StableHlo.after hostOps0 W _ = _
  after_results_simp
  walk_rest
  rw [h8]
  simp only [val_main_v15, val_main_v13, val_main_v14, val_main_v11, val_main_v12, val_main_v10, val_main_v8, val_main_v3,
    val_main_v2, val_main_v6, val_main_v4, val_main_v9, val_main_cst, val_main_cst_0, val_main_cst_1, val_main_cst_2]
  rfl

set_option maxHeartbeats 400000 in
theorem a_v19 (h8 : W (Proc.devRef .tc main_arg8) = x8) :
    StableHlo.after hostOps0 W (Proc.devRef .tc main_v19) = val_main_v16 (F := Ideal) x8 := by
  show StableHlo.after hostOps0 W _ = _
  after_results_simp
  walk_rest
  rw [h8]
  simp only [val_main_v16, val_main_v13, val_main_v11, val_main_v12, val_main_v10, val_main_v8, val_main_v3,
    val_main_v2, val_main_v6, val_main_v4, val_main_v9, val_main_cst, val_main_cst_0, val_main_cst_1]
  rfl

theorem a_cst3 : StableHlo.after hostOps0 W (Proc.devRef .tc main_cst_3) = val_main_cst_3 (F := Ideal) := by
  show StableHlo.after hostOps0 W _ = _
  after_results_simp
  rfl

/-! ### The second stretch: the where that keeps the inverse square root on nodes of positive degree -/

set_option maxHeartbeats 100000 in
/-- the where, read for any contents of its three inputs: the transports of contents between a buffer's own type and
    the type of the tensor it holds are identities -/
theorem b_v20_gen (a : (⟨S100000, .i1⟩ : BufTy).Contents (Elt Ideal)) (b : (⟨S100000, .f32⟩ : BufTy).Contents (Elt Ideal))
    (c : (⟨S_, .f32⟩ : BufTy).Contents (Elt Ideal))
    (h18 : W (Proc.devRef .tc main_v18) = a) (h19 : W (Proc.devRef .tc main_v19) = b)
    (hc : W (Proc.devRef .tc main_cst_3) = c) :
    StableHlo.after hostOps0_1 W (Proc.devRef .tc main_v20)
      = select a b (broadcastInDim S100000 ![] bcast_S_S100000 (id c)) := by
  show StableHlo.after hostOps0_1 W _ = _
  after_results_simp
  rw [h18, h19, hc]
  rfl

theorem b_v20 (h18 : W (Proc.devRef .tc main_v18) = val_main_v15 (F := Ideal) x8)
    (h19 : W (Proc.devRef .tc main_v19) = val_main_v16 (F := Ideal) x8)
    (hc : W (Proc.devRef .tc main_cst_3) = val_main_cst_3 (F := Ideal)) :
    StableHlo.after hostOps0_1 W (Proc.devRef .tc main_v20) = val_main_v17 (F := Ideal) x8 :=
  (b_v20_gen W _ _ _ h18 h19 hc).trans (by
    simp only [val_main_v17, val_main_call0_v1, val_main_call0_v0] <;> rfl)

theorem b_keep_v1 : StableHlo.after hostOps0_1 W (Proc.devRef .tc main_v1) = W (Proc.devRef .tc main_v1) := by
  show StableHlo.after hostOps0_1 W _ = _
  after_results_simp

theorem b_keep_v3 : StableHlo.after hostOps0_1 W (Proc.devRef .tc main_v3) = W (Proc.devRef .tc main_v3) := by
  show StableHlo.after hostOps0_1 W _ = _
  after_results_simp

theorem b_keep_v5 : StableHlo.after hostOps0_1 W (Proc.devRef .tc main_v5) = W (Proc.devRef .tc main_v5) := by
  show StableHlo.after hostOps0_1 W _ = _
  after_results_simp

theorem b_keep_v7 : StableHlo.after hostOps0_1 W (Proc.devRef .tc main_v7) = W (Proc.devRef .tc main_v7) := by
  show StableHlo.after hostOps0_1 W _ = _
  after_results_simp

theorem b_keep_v10 : StableHlo.after hostOps0_1 W (Proc.devRef .tc main_v10) = W (Proc.devRef .tc main_v10) := by
  show StableHlo.after hostOps0_1 W _ = _
  after_results_simp

theorem b_keep_v11 : StableHlo.after hostOps0_1 W (Proc.devRef .tc main_v11) = W (Proc.devRef .tc main_v11) := by
  show StableHlo.after hostOps0_1 W _ = _
  after_results_simp

theorem b_keep_v13 : StableHlo.after hostOps0_1 W (Proc.devRef .tc main_v13) = W (Proc.devRef .tc main_v13) := by
  show StableHlo.after hostOps0_1 W _ = _
  after_results_simp

/-! ### The third stretch: the two gathers of the node factors along the edges and their product, the edge weights -/

set_option maxHeartbeats 400000 in
theorem c_v36 (h10 : W (Proc.devRef .tc main_v10) = val_main_v7 (F := Ideal) x8)
    (h11 : W (Proc.devRef .tc main_v11) = val_main_v8 (F := Ideal) x8)
    (h13 : W (Proc.devRef .tc main_v13) = val_main_v10 (F := Ideal))
    (h20 : W (Proc.devRef .tc main_v20) = val_main_v17 (F := Ideal) x8) :
    StableHlo.after hostOps0_2 W (Proc.devRef .tc main_v36) = val_main_v33 (F := Ideal) x8 := by
  show StableHlo.after hostOps0_2 W _ = _
  after_results_simp
  rw [h10, h11, h13, h20]
  simp only [val_main_v33, val_main_v25, val_main_v32, val_main_v24, val_main_v23, val_main_v22, val_main_v19, val_main_v21,
    val_main_v18, val_main_v20, val_main_v31, val_main_v30, val_main_v27, val_main_v29, val_main_v26, val_main_v28,
    val_main_c, val_main_c_4, val_main_c_5, val_main_c_6]
  rfl

theorem c_keep_v1 : StableHlo.after hostOps0_2 W (Proc.devRef .tc main_v1) = W (Proc.devRef .tc main_v1) := by
  show StableHlo.after hostOps0_2 W _ = _
  after_results_simp

theorem c_keep_v3 : StableHlo.after hostOps0_2 W (Proc.devRef .tc main_v3) = W (Proc.devRef .tc main_v3) := by
  show StableHlo.after hostOps0_2 W _ = _
  after_results_simp

theorem c_keep_v5 : StableHlo.after hostOps0_2 W (Proc.devRef .tc main_v5) = W (Proc.devRef .tc main_v5) := by
  show StableHlo.after hostOps0_2 W _ = _
  after_results_simp

theorem c_keep_v7 : StableHlo.after hostOps0_2 W (Proc.devRef .tc main_v7) = W (Proc.devRef .tc main_v7) := by
  show StableHlo.after hostOps0_2 W _ = _
  after_results_simp

theorem c_keep_v10 : StableHlo.after hostOps0_2 W (Proc.devRef .tc main_v10) = W (Proc.devRef .tc main_v10) := by
  show StableHlo.after hostOps0_2 W _ = _
  after_results_simp

theorem c_keep_v11 : StableHlo.after hostOps0_2 W (Proc.devRef .tc main_v11) = W (Proc.devRef .tc main_v11) := by
  show StableHlo.after hostOps0_2 W _ = _
  after_results_simp

/-! ## The three stretches in a row -/

/-- the valuation after the three stretches before region 0 -/
abbrev pre (W : Valuation τ sig (Elt Ideal)) : Valuation τ sig (Elt Ideal) :=
  StableHlo.after hostOps0_2 (StableHlo.after hostOps0_1 (StableHlo.after hostOps0 W))

theorem pre_v10 (h8 : W (Proc.devRef .tc main_arg8) = x8) : pre W (Proc.devRef .tc main_v10) = val_main_v7 (F := Ideal) x8 :=
  (c_keep_v10 _).trans ((b_keep_v10 _).trans (a_v10 W x8 h8))
theorem pre_v11 (h8 : W (Proc.devRef .tc main_arg8) = x8) : pre W (Proc.devRef .tc main_v11) = val_main_v8 (F := Ideal) x8 :=
  (c_keep_v11 _).trans ((b_keep_v11 _).trans (a_v11 W x8 h8))
theorem pre_v36 (h8 : W (Proc.devRef .tc main_arg8) = x8) : pre W (Proc.devRef .tc main_v36) = val_main_v33 (F := Ideal) x8 :=
  c_v36 _ x8 ((b_keep_v10 _).trans (a_v10 W x8 h8)) ((b_keep_v11 _).trans (a_v11 W x8 h8)) ((b_keep_v13 _).trans (a_v13 W))
    (b_v20 _ x8 (a_v18 W x8 h8) (a_v19 W x8 h8) (a_cst3 W))
theorem pre_v1 (h8 : W (Proc.devRef .tc main_arg8) = x8) : pre W (Proc.devRef .tc main_v1) = val_main_v1 (F := Ideal) x8 :=
  (c_keep_v1 _).trans ((b_keep_v1 _).trans (a_v1 W x8 h8))
theorem pre_v3 (h8 : W (Proc.devRef .tc main_arg8) = x8) : pre W (Proc.devRef .tc main_v3) = val_main_v3 (F := Ideal) x8 :=
  (c_keep_v3 _).trans ((b_keep_v3 _).trans (a_v3 W x8 h8))
theorem pre_v5 (h9 : W (Proc.devRef .tc main_arg9) = x9) : pre W (Proc.devRef .tc main_v5) = val_main_v111 (F := Ideal) x9 :=
  (c_keep_v5 _).trans ((b_keep_v5 _).trans (a_v5 W x9 h9))
theorem pre_v7 (h9 : W (Proc.devRef .tc main_arg9) = x9) : pre W (Proc.devRef .tc main_v7) = val_main_v113 (F := Ideal) x9 :=
  (c_keep_v7 _).trans ((b_keep_v7 _).trans (a_v7 W x9 h9))

end Cert.KernelIdeal.HostK

end
-- ==== Proof.HostTail.lean ====
import proofs.«159260_j58506044506633_2_alg».proof.Proof.Gen.KernelIdeal.Launch
import proofs.«159260_j58506044506633_2_alg».proof.Proof.RefRead
import Idealize.ShloMosaic.Lib.StableHlo.Run

/-! # The reconstruction loss: the 74 host operations after the last region

The kernel program ends with nine stretches of host operations that compute the loss from the representation, the
feature array and the four edge-index vectors; the reference computes it by the same operations in the same order.
Here: the two region outputs are not written by these stretches, and the loss buffer ends at the reference's stage. -/

set_option maxRecDepth 16384

noncomputable section

namespace Cert.KernelIdeal.HostTail

open Idealize.ShloMosaic Idealize.ShloMosaic.TcCoe Idealize.SL.Sem
open Cert.KernelIdeal Cert.KernelIdeal.Gen
open Cert.ReferenceIdeal.ReadP

/-- Peels the outermost stretch off a goal `after l V b = rhs` when no operation of the literal stretch `l` writes `b`:
    the stretch's written buffers are listed one by one and each differs from `b`. -/
local macro "skip_stretch " l:ident : tactic =>
  `(tactic| (
    refine Eq.trans (StableHlo.after_of_forall_not_mem _ _ (List.forall_iff_forall_mem.mp (by
      simp only [$l:ident, List.Forall, StableHlo.nullary_writes, StableHlo.unary_writes, StableHlo.binary_writes,
        StableHlo.ternary_writes, Finset.mem_singleton]
      repeat' apply And.intro
      all_goals exact StableHlo.devRef_ne_of_ne (by decide)))) ?_))

section Stretches
variable {x0 x1 : (⟨S100000x128, .f32⟩ : BufTy).Contents (Elt Ideal)} {x2 : (⟨S128x64, .f32⟩ : BufTy).Contents (Elt Ideal)}
  {x3 : (⟨S64, .f32⟩ : BufTy).Contents (Elt Ideal)} {x4 : (⟨S64x64, .f32⟩ : BufTy).Contents (Elt Ideal)}
  {x5 : (⟨S64, .f32⟩ : BufTy).Contents (Elt Ideal)} {x8 x9 : (⟨S2x1600000, .i32⟩ : BufTy).Contents (Elt Ideal)}

/-! ### One stretch at a time, from any valuation `V` whose input buffers hold the reference's stage values

The reference computes the loss by the same operations in the same order (its stages 114 … 187); each lemma reads one
stretch at the buffer a later stretch consumes, replaces the stretch's inputs by the stage values they hold, and
compares the two operation trees, which agree node by node (the two programs' dimension records are separate
constants with equal bodies). The representation `val_main_v105` stays folded throughout. -/

/-- the mask of the negative edges: first endpoint below second endpoint -/
theorem s0_v70 (V : Valuation τ sig (Elt Ideal))
    (hv5 : V (Proc.devRef .tc main_v5) = val_main_v111 (F := Ideal) x9) (hv7 : V (Proc.devRef .tc main_v7) = val_main_v113 (F := Ideal) x9) :
    StableHlo.after hostOps4 V (Proc.devRef .tc main_v70) = val_main_v114 (F := Ideal) x9 := by
  simp only [hostOps4]
  after_results_simp
  rw [hv5, hv7]
  rfl

/-- the mask of the positive edges: first endpoint below second endpoint -/
theorem s0_v71 (V : Valuation τ sig (Elt Ideal))
    (hv1 : V (Proc.devRef .tc main_v1) = val_main_v1 (F := Ideal) x8) (hv3 : V (Proc.devRef .tc main_v3) = val_main_v3 (F := Ideal) x8) :
    StableHlo.after hostOps4 V (Proc.devRef .tc main_v71) = val_main_v115 (F := Ideal) x8 := by
  simp only [hostOps4]
  after_results_simp
  rw [hv1, hv3]
  rfl

/-- the row dot products of the representation over the negative edges -/
theorem s0_v87 (V : Valuation τ sig (Elt Ideal))
    (hrep : V (Proc.devRef .tc main_v69_0) = val_main_v105 (F := Ideal) x0 x2 x3 x4 x5 x8)
    (hv5 : V (Proc.devRef .tc main_v5) = val_main_v111 (F := Ideal) x9) (hv7 : V (Proc.devRef .tc main_v7) = val_main_v113 (F := Ideal) x9) :
    StableHlo.after hostOps4 V (Proc.devRef .tc main_v87) = val_main_v131 (F := Ideal) x0 x2 x3 x4 x5 x8 x9 := by
  simp only [hostOps4]
  after_results_simp
  rw [hrep, hv5, hv7]
  rfl

/-- the first positive-part call, read at its result: its three operations over the typed references compute the
    maximum with the zero array (the transports along the references' buffer types are identities) -/
theorem s1_raw (V : Valuation τ sig (Elt Ideal)) :
    @Eq ((⟨S1600000, .f32⟩ : BufTy).Contents (Elt Ideal)) (StableHlo.after hostOps4_1 V (Proc.devRef .tc main_v88))
      (maximumf (F := Ideal) (φ := .f32) (V (Proc.devRef .tc main_v87))
        (broadcastInDim S1600000 ![] bcast_S_S1600000 (constant S_ .f32 0x00000000#32))) := rfl

/-- their positive parts -/
theorem s1_v88 (V : Valuation τ sig (Elt Ideal))
    (h87 : V (Proc.devRef .tc main_v87) = val_main_v131 (F := Ideal) x0 x2 x3 x4 x5 x8 x9) :
    StableHlo.after hostOps4_1 V (Proc.devRef .tc main_v88) = val_main_v132 (F := Ideal) x0 x2 x3 x4 x5 x8 x9 := by
  refine (s1_raw V).trans ?_
  rw [h87]
  rfl

/-- the row dot products of the representation over the positive edges -/
theorem s2_v104 (V : Valuation τ sig (Elt Ideal))
    (hrep : V (Proc.devRef .tc main_v69_0) = val_main_v105 (F := Ideal) x0 x2 x3 x4 x5 x8)
    (hv1 : V (Proc.devRef .tc main_v1) = val_main_v1 (F := Ideal) x8) (hv3 : V (Proc.devRef .tc main_v3) = val_main_v3 (F := Ideal) x8) :
    StableHlo.after hostOps4_2 V (Proc.devRef .tc main_v104) = val_main_v148 (F := Ideal) x0 x2 x3 x4 x5 x8 := by
  simp only [hostOps4_2]
  after_results_simp
  rw [hrep, hv1, hv3]
  rfl

/-- the second positive-part call, read at its result -/
theorem s3_raw (V : Valuation τ sig (Elt Ideal)) :
    @Eq ((⟨S1600000, .f32⟩ : BufTy).Contents (Elt Ideal)) (StableHlo.after hostOps4_3 V (Proc.devRef .tc main_v105))
      (maximumf (F := Ideal) (φ := .f32) (V (Proc.devRef .tc main_v104))
        (broadcastInDim S1600000 ![] bcast_S_S1600000 (constant S_ .f32 0x00000000#32))) := rfl

/-- their positive parts -/
theorem s3_v105 (V : Valuation τ sig (Elt Ideal))
    (h104 : V (Proc.devRef .tc main_v104) = val_main_v148 (F := Ideal) x0 x2 x3 x4 x5 x8) :
    StableHlo.after hostOps4_3 V (Proc.devRef .tc main_v105) = val_main_v149 (F := Ideal) x0 x2 x3 x4 x5 x8 := by
  refine (s3_raw V).trans ?_
  rw [h104]
  rfl

/-- over the positive edges: half the row dot product of the features plus half the positive part of the
    representation's row dot product -/
theorem s4_v126 (V : Valuation τ sig (Elt Ideal))
    (h1 : V (Proc.devRef .tc main_arg1) = x1)
    (hv1 : V (Proc.devRef .tc main_v1) = val_main_v1 (F := Ideal) x8) (hv3 : V (Proc.devRef .tc main_v3) = val_main_v3 (F := Ideal) x8)
    (h105 : V (Proc.devRef .tc main_v105) = val_main_v149 (F := Ideal) x0 x2 x3 x4 x5 x8) :
    StableHlo.after hostOps4_4 V (Proc.devRef .tc main_v126) = val_main_v170 (F := Ideal) x0 x1 x2 x3 x4 x5 x8 := by
  simp only [hostOps4_4]
  after_results_simp
  rw [h1, hv1, hv3, h105]
  rfl

/-- the squares over the negative edges -/
theorem s4_v127 (V : Valuation τ sig (Elt Ideal))
    (h88 : V (Proc.devRef .tc main_v88) = val_main_v132 (F := Ideal) x0 x2 x3 x4 x5 x8 x9) :
    StableHlo.after hostOps4_4 V (Proc.devRef .tc main_v127) = val_main_v171 (F := Ideal) x0 x2 x3 x4 x5 x8 x9 := by
  simp only [hostOps4_4]
  after_results_simp
  rw [h88]
  rfl

/-- the zero the first masked choice falls back to -/
theorem s4_cst30 (V : Valuation τ sig (Elt Ideal)) :
    StableHlo.after hostOps4_4 V (Proc.devRef .tc main_cst_30) = val_main_cst_40 (F := Ideal) := by
  simp only [hostOps4_4]
  after_results_simp
  rfl

/-- the first masked-choice call, read at its result: the choice, under the mask, between the operand and the
    fallback scalar spread over the edges -/
theorem s5_raw (V : Valuation τ sig (Elt Ideal)) :
    @Eq ((⟨S1600000, .f32⟩ : BufTy).Contents (Elt Ideal)) (StableHlo.after hostOps4_5 V (Proc.devRef .tc main_v128))
      (select (V (Proc.devRef .tc main_v70)) (V (Proc.devRef .tc main_v127))
        (broadcastInDim S1600000 ![] bcast_S_S1600000 (id (V (Proc.devRef .tc main_cst_30))))) := rfl

/-- the squares over the negative edges, masked -/
theorem s5_v128 (V : Valuation τ sig (Elt Ideal))
    (h70 : V (Proc.devRef .tc main_v70) = val_main_v114 (F := Ideal) x9)
    (h127 : V (Proc.devRef .tc main_v127) = val_main_v171 (F := Ideal) x0 x2 x3 x4 x5 x8 x9)
    (hc : V (Proc.devRef .tc main_cst_30) = val_main_cst_40 (F := Ideal)) :
    StableHlo.after hostOps4_5 V (Proc.devRef .tc main_v128) = val_main_v172 (F := Ideal) x0 x2 x3 x4 x5 x8 x9 := by
  refine (s5_raw V).trans ?_
  rw [h70, h127, hc]
  rfl

/-- their sum -/
theorem s6_v129 (V : Valuation τ sig (Elt Ideal))
    (h128 : V (Proc.devRef .tc main_v128) = val_main_v172 (F := Ideal) x0 x2 x3 x4 x5 x8 x9) :
    StableHlo.after hostOps4_6 V (Proc.devRef .tc main_v129) = val_main_v173 (F := Ideal) x0 x2 x3 x4 x5 x8 x9 := by
  simp only [hostOps4_6]
  after_results_simp
  rw [h128]
  rfl

/-- its squared distance from one -/
theorem s6_v132 (V : Valuation τ sig (Elt Ideal))
    (h126 : V (Proc.devRef .tc main_v126) = val_main_v170 (F := Ideal) x0 x1 x2 x3 x4 x5 x8) :
    StableHlo.after hostOps4_6 V (Proc.devRef .tc main_v132) = val_main_v176 (F := Ideal) x0 x1 x2 x3 x4 x5 x8 := by
  simp only [hostOps4_6]
  after_results_simp
  rw [h126]
  rfl

/-- the zero the second masked choice falls back to -/
theorem s6_cst33 (V : Valuation τ sig (Elt Ideal)) :
    StableHlo.after hostOps4_6 V (Proc.devRef .tc main_cst_33) = val_main_cst_43 (F := Ideal) := by
  simp only [hostOps4_6]
  after_results_simp
  rfl

/-- the second masked-choice call, read at its result -/
theorem s7_raw (V : Valuation τ sig (Elt Ideal)) :
    @Eq ((⟨S1600000, .f32⟩ : BufTy).Contents (Elt Ideal)) (StableHlo.after hostOps4_7 V (Proc.devRef .tc main_v133))
      (select (V (Proc.devRef .tc main_v71)) (V (Proc.devRef .tc main_v132))
        (broadcastInDim S1600000 ![] bcast_S_S1600000 (id (V (Proc.devRef .tc main_cst_33))))) := rfl

/-- the squared distances over the positive edges, masked -/
theorem s7_v133 (V : Valuation τ sig (Elt Ideal))
    (h71 : V (Proc.devRef .tc main_v71) = val_main_v115 (F := Ideal) x8)
    (h132 : V (Proc.devRef .tc main_v132) = val_main_v176 (F := Ideal) x0 x1 x2 x3 x4 x5 x8)
    (hc : V (Proc.devRef .tc main_cst_33) = val_main_cst_43 (F := Ideal)) :
    StableHlo.after hostOps4_7 V (Proc.devRef .tc main_v133) = val_main_v177 (F := Ideal) x0 x1 x2 x3 x4 x5 x8 := by
  refine (s7_raw V).trans ?_
  rw [h71, h132, hc]
  rfl

/-- the loss: the two masked sums, scaled, over the number of unmasked edges -/
theorem s8_v143 (V : Valuation τ sig (Elt Ideal))
    (h133 : V (Proc.devRef .tc main_v133) = val_main_v177 (F := Ideal) x0 x1 x2 x3 x4 x5 x8)
    (h70 : V (Proc.devRef .tc main_v70) = val_main_v114 (F := Ideal) x9)
    (h71 : V (Proc.devRef .tc main_v71) = val_main_v115 (F := Ideal) x8)
    (h129 : V (Proc.devRef .tc main_v129) = val_main_v173 (F := Ideal) x0 x2 x3 x4 x5 x8 x9) :
    StableHlo.after hostOps4_8 V (Proc.devRef .tc main_v143) = val_main_v187 (F := Ideal) x0 x1 x2 x3 x4 x5 x8 x9 := by
  simp only [hostOps4_8]
  after_results_simp
  rw [h133, h70, h71, h129]
  rfl

variable (W : Valuation τ sig (Elt Ideal))

/-! ### The stretches in a row

`T k W` is the valuation after the first `k + 1` stretches. A buffer read several stretches after it was written is
carried over the stretches in between, none of whose operations writes it. -/

abbrev T0 (W : Valuation τ sig (Elt Ideal)) : Valuation τ sig (Elt Ideal) := StableHlo.after hostOps4 W
abbrev T1 (W : Valuation τ sig (Elt Ideal)) : Valuation τ sig (Elt Ideal) := StableHlo.after hostOps4_1 (T0 W)
abbrev T2 (W : Valuation τ sig (Elt Ideal)) : Valuation τ sig (Elt Ideal) := StableHlo.after hostOps4_2 (T1 W)
abbrev T3 (W : Valuation τ sig (Elt Ideal)) : Valuation τ sig (Elt Ideal) := StableHlo.after hostOps4_3 (T2 W)
abbrev T4 (W : Valuation τ sig (Elt Ideal)) : Valuation τ sig (Elt Ideal) := StableHlo.after hostOps4_4 (T3 W)
abbrev T5 (W : Valuation τ sig (Elt Ideal)) : Valuation τ sig (Elt Ideal) := StableHlo.after hostOps4_5 (T4 W)
abbrev T6 (W : Valuation τ sig (Elt Ideal)) : Valuation τ sig (Elt Ideal) := StableHlo.after hostOps4_6 (T5 W)
abbrev T7 (W : Valuation τ sig (Elt Ideal)) : Valuation τ sig (Elt Ideal) := StableHlo.after hostOps4_7 (T6 W)

theorem t4_v70 (hv5 : W (Proc.devRef .tc main_v5) = val_main_v111 (F := Ideal) x9) (hv7 : W (Proc.devRef .tc main_v7) = val_main_v113 (F := Ideal) x9) : T4 W (Proc.devRef .tc main_v70) = val_main_v114 (F := Ideal) x9 := by
  skip_stretch hostOps4_4; skip_stretch hostOps4_3; skip_stretch hostOps4_2; skip_stretch hostOps4_1
  exact s0_v70 W hv5 hv7

theorem t7_v70 (hv5 : W (Proc.devRef .tc main_v5) = val_main_v111 (F := Ideal) x9) (hv7 : W (Proc.devRef .tc main_v7) = val_main_v113 (F := Ideal) x9) : T7 W (Proc.devRef .tc main_v70) = val_main_v114 (F := Ideal) x9 := by
  skip_stretch hostOps4_7; skip_stretch hostOps4_6; skip_stretch hostOps4_5
  exact t4_v70 W hv5 hv7

theorem t6_v71 (hv1 : W (Proc.devRef .tc main_v1) = val_main_v1 (F := Ideal) x8) (hv3 : W (Proc.devRef .tc main_v3) = val_main_v3 (F := Ideal) x8) : T6 W (Proc.devRef .tc main_v71) = val_main_v115 (F := Ideal) x8 := by
  skip_stretch hostOps4_6; skip_stretch hostOps4_5; skip_stretch hostOps4_4; skip_stretch hostOps4_3; skip_stretch hostOps4_2; skip_stretch hostOps4_1
  exact s0_v71 W hv1 hv3

theorem t7_v71 (hv1 : W (Proc.devRef .tc main_v1) = val_main_v1 (F := Ideal) x8) (hv3 : W (Proc.devRef .tc main_v3) = val_main_v3 (F := Ideal) x8) : T7 W (Proc.devRef .tc main_v71) = val_main_v115 (F := Ideal) x8 := by
  skip_stretch hostOps4_7
  exact t6_v71 W hv1 hv3

theorem t1_rep (hrep : W (Proc.devRef .tc main_v69_0) = val_main_v105 (F := Ideal) x0 x2 x3 x4 x5 x8) : T1 W (Proc.devRef .tc main_v69_0) = val_main_v105 (F := Ideal) x0 x2 x3 x4 x5 x8 := by
  skip_stretch hostOps4_1; skip_stretch hostOps4
  exact hrep

theorem t1_v1 (hv1 : W (Proc.devRef .tc main_v1) = val_main_v1 (F := Ideal) x8) : T1 W (Proc.devRef .tc main_v1) = val_main_v1 (F := Ideal) x8 := by
  skip_stretch hostOps4_1; skip_stretch hostOps4
  exact hv1

theorem t1_v3 (hv3 : W (Proc.devRef .tc main_v3) = val_main_v3 (F := Ideal) x8) : T1 W (Proc.devRef .tc main_v3) = val_main_v3 (F := Ideal) x8 := by
  skip_stretch hostOps4_1; skip_stretch hostOps4
  exact hv3

theorem t3_v1 (hv1 : W (Proc.devRef .tc main_v1) = val_main_v1 (F := Ideal) x8) : T3 W (Proc.devRef .tc main_v1) = val_main_v1 (F := Ideal) x8 := by
  skip_stretch hostOps4_3; skip_stretch hostOps4_2
  exact t1_v1 W hv1

theorem t3_v3 (hv3 : W (Proc.devRef .tc main_v3) = val_main_v3 (F := Ideal) x8) : T3 W (Proc.devRef .tc main_v3) = val_main_v3 (F := Ideal) x8 := by
  skip_stretch hostOps4_3; skip_stretch hostOps4_2
  exact t1_v3 W hv3

theorem t3_arg1 (h1 : W (Proc.devRef .tc main_arg1) = x1) : T3 W (Proc.devRef .tc main_arg1) = x1 := by
  skip_stretch hostOps4_3; skip_stretch hostOps4_2; skip_stretch hostOps4_1; skip_stretch hostOps4
  exact h1

theorem t1_v88 (hrep : W (Proc.devRef .tc main_v69_0) = val_main_v105 (F := Ideal) x0 x2 x3 x4 x5 x8) (hv5 : W (Proc.devRef .tc main_v5) = val_main_v111 (F := Ideal) x9) (hv7 : W (Proc.devRef .tc main_v7) = val_main_v113 (F := Ideal) x9) :
    T1 W (Proc.devRef .tc main_v88) = val_main_v132 (F := Ideal) x0 x2 x3 x4 x5 x8 x9 :=
  s1_v88 (T0 W) (s0_v87 W hrep hv5 hv7)

theorem t3_v88 (hrep : W (Proc.devRef .tc main_v69_0) = val_main_v105 (F := Ideal) x0 x2 x3 x4 x5 x8) (hv5 : W (Proc.devRef .tc main_v5) = val_main_v111 (F := Ideal) x9) (hv7 : W (Proc.devRef .tc main_v7) = val_main_v113 (F := Ideal) x9) :
    T3 W (Proc.devRef .tc main_v88) = val_main_v132 (F := Ideal) x0 x2 x3 x4 x5 x8 x9 := by
  skip_stretch hostOps4_3; skip_stretch hostOps4_2
  exact t1_v88 W hrep hv5 hv7

theorem t3_v105 (hrep : W (Proc.devRef .tc main_v69_0) = val_main_v105 (F := Ideal) x0 x2 x3 x4 x5 x8) (hv1 : W (Proc.devRef .tc main_v1) = val_main_v1 (F := Ideal) x8) (hv3 : W (Proc.devRef .tc main_v3) = val_main_v3 (F := Ideal) x8) :
    T3 W (Proc.devRef .tc main_v105) = val_main_v149 (F := Ideal) x0 x2 x3 x4 x5 x8 :=
  s3_v105 (T2 W) (s2_v104 (T1 W) (t1_rep W hrep) (t1_v1 W hv1) (t1_v3 W hv3))

theorem t4_v126 (hrep : W (Proc.devRef .tc main_v69_0) = val_main_v105 (F := Ideal) x0 x2 x3 x4 x5 x8) (h1 : W (Proc.devRef .tc main_arg1) = x1) (hv1 : W (Proc.devRef .tc main_v1) = val_main_v1 (F := Ideal) x8) (hv3 : W (Proc.devRef .tc main_v3) = val_main_v3 (F := Ideal) x8) :
    T4 W (Proc.devRef .tc main_v126) = val_main_v170 (F := Ideal) x0 x1 x2 x3 x4 x5 x8 :=
  s4_v126 (T3 W) (t3_arg1 W h1) (t3_v1 W hv1) (t3_v3 W hv3) (t3_v105 W hrep hv1 hv3)

theorem t4_v127 (hrep : W (Proc.devRef .tc main_v69_0) = val_main_v105 (F := Ideal) x0 x2 x3 x4 x5 x8) (hv5 : W (Proc.devRef .tc main_v5) = val_main_v111 (F := Ideal) x9) (hv7 : W (Proc.devRef .tc main_v7) = val_main_v113 (F := Ideal) x9) :
    T4 W (Proc.devRef .tc main_v127) = val_main_v171 (F := Ideal) x0 x2 x3 x4 x5 x8 x9 :=
  s4_v127 (T3 W) (t3_v88 W hrep hv5 hv7)

theorem t5_v128 (hrep : W (Proc.devRef .tc main_v69_0) = val_main_v105 (F := Ideal) x0 x2 x3 x4 x5 x8) (hv5 : W (Proc.devRef .tc main_v5) = val_main_v111 (F := Ideal) x9) (hv7 : W (Proc.devRef .tc main_v7) = val_main_v113 (F := Ideal) x9) :
    T5 W (Proc.devRef .tc main_v128) = val_main_v172 (F := Ideal) x0 x2 x3 x4 x5 x8 x9 :=
  s5_v128 (T4 W) (t4_v70 W hv5 hv7) (t4_v127 W hrep hv5 hv7) (s4_cst30 (T3 W))

theorem t5_v126 (hrep : W (Proc.devRef .tc main_v69_0) = val_main_v105 (F := Ideal) x0 x2 x3 x4 x5 x8) (h1 : W (Proc.devRef .tc main_arg1) = x1) (hv1 : W (Proc.devRef .tc main_v1) = val_main_v1 (F := Ideal) x8) (hv3 : W (Proc.devRef .tc main_v3) = val_main_v3 (F := Ideal) x8) :
    T5 W (Proc.devRef .tc main_v126) = val_main_v170 (F := Ideal) x0 x1 x2 x3 x4 x5 x8 := by
  skip_stretch hostOps4_5
  exact t4_v126 W hrep h1 hv1 hv3

theorem t6_v129 (hrep : W (Proc.devRef .tc main_v69_0) = val_main_v105 (F := Ideal) x0 x2 x3 x4 x5 x8) (hv5 : W (Proc.devRef .tc main_v5) = val_main_v111 (F := Ideal) x9) (hv7 : W (Proc.devRef .tc main_v7) = val_main_v113 (F := Ideal) x9) :
    T6 W (Proc.devRef .tc main_v129) = val_main_v173 (F := Ideal) x0 x2 x3 x4 x5 x8 x9 :=
  s6_v129 (T5 W) (t5_v128 W hrep hv5 hv7)

theorem t6_v132 (hrep : W (Proc.devRef .tc main_v69_0) = val_main_v105 (F := Ideal) x0 x2 x3 x4 x5 x8) (h1 : W (Proc.devRef .tc main_arg1) = x1) (hv1 : W (Proc.devRef .tc main_v1) = val_main_v1 (F := Ideal) x8) (hv3 : W (Proc.devRef .tc main_v3) = val_main_v3 (F := Ideal) x8) :
    T6 W (Proc.devRef .tc main_v132) = val_main_v176 (F := Ideal) x0 x1 x2 x3 x4 x5 x8 :=
  s6_v132 (T5 W) (t5_v126 W hrep h1 hv1 hv3)

theorem t7_v133 (hrep : W (Proc.devRef .tc main_v69_0) = val_main_v105 (F := Ideal) x0 x2 x3 x4 x5 x8) (h1 : W (Proc.devRef .tc main_arg1) = x1) (hv1 : W (Proc.devRef .tc main_v1) = val_main_v1 (F := Ideal) x8) (hv3 : W (Proc.devRef .tc main_v3) = val_main_v3 (F := Ideal) x8) :
    T7 W (Proc.devRef .tc main_v133) = val_main_v177 (F := Ideal) x0 x1 x2 x3 x4 x5 x8 :=
  s7_v133 (T6 W) (t6_v71 W hv1 hv3) (t6_v132 W hrep h1 hv1 hv3) (s6_cst33 (T5 W))

theorem t7_v129 (hrep : W (Proc.devRef .tc main_v69_0) = val_main_v105 (F := Ideal) x0 x2 x3 x4 x5 x8) (hv5 : W (Proc.devRef .tc main_v5) = val_main_v111 (F := Ideal) x9) (hv7 : W (Proc.devRef .tc main_v7) = val_main_v113 (F := Ideal) x9) :
    T7 W (Proc.devRef .tc main_v129) = val_main_v173 (F := Ideal) x0 x2 x3 x4 x5 x8 x9 := by
  skip_stretch hostOps4_7
  exact t6_v129 W hrep hv5 hv7

end Stretches

section Host
variable (W : Valuation τ sig (Elt Ideal))
variable (x0 x1 : (⟨S100000x128, .f32⟩ : BufTy).Contents (Elt Ideal)) (x2 : (⟨S128x64, .f32⟩ : BufTy).Contents (Elt Ideal))
  (x3 : (⟨S64, .f32⟩ : BufTy).Contents (Elt Ideal)) (x4 : (⟨S64x64, .f32⟩ : BufTy).Contents (Elt Ideal))
  (x5 : (⟨S64, .f32⟩ : BufTy).Contents (Elt Ideal)) (x8 x9 : (⟨S2x1600000, .i32⟩ : BufTy).Contents (Elt Ideal))

/-- the valuation after the nine stretches that follow region 3 -/
abbrev tail (W : Valuation τ sig (Elt Ideal)) : Valuation τ sig (Elt Ideal) :=
  StableHlo.after hostOps4_8 (StableHlo.after hostOps4_7 (StableHlo.after hostOps4_6 (StableHlo.after hostOps4_5 (StableHlo.after hostOps4_4
    (StableHlo.after hostOps4_3 (StableHlo.after hostOps4_2 (StableHlo.after hostOps4_1 (StableHlo.after hostOps4 W))))))))

/-- The loss buffer ends at the reference's last stage. -/
theorem tail_loss (hrep : W (Proc.devRef .tc main_v69_0) = val_main_v105 (F := Ideal) x0 x2 x3 x4 x5 x8)
    (h1 : W (Proc.devRef .tc main_arg1) = x1)
    (hv1 : W (Proc.devRef .tc main_v1) = val_main_v1 (F := Ideal) x8) (hv3 : W (Proc.devRef .tc main_v3) = val_main_v3 (F := Ideal) x8)
    (hv5 : W (Proc.devRef .tc main_v5) = val_main_v111 (F := Ideal) x9) (hv7 : W (Proc.devRef .tc main_v7) = val_main_v113 (F := Ideal) x9) :
    tail W (Proc.devRef .tc main_v143) = val_main_v187 (F := Ideal) x0 x1 x2 x3 x4 x5 x8 x9 :=
  s8_v143 (T7 W) (t7_v133 W hrep h1 hv1 hv3) (t7_v70 W hv5 hv7) (t7_v71 W hv1 hv3) (t7_v129 W hrep hv5 hv7)

/-- None of the 74 operations writes the representation's buffer. -/
theorem tail_rep : tail W (Proc.devRef .tc main_v69_0) = W (Proc.devRef .tc main_v69_0) := by
  skip_stretch hostOps4_8; skip_stretch hostOps4_7; skip_stretch hostOps4_6; skip_stretch hostOps4_5; skip_stretch hostOps4_4; skip_stretch hostOps4_3; skip_stretch hostOps4_2; skip_stretch hostOps4_1; skip_stretch hostOps4
  rfl

/-- None of the 74 operations writes the class scores' buffer. -/
theorem tail_y : tail W (Proc.devRef .tc main_v69_1) = W (Proc.devRef .tc main_v69_1) := by
  skip_stretch hostOps4_8; skip_stretch hostOps4_7; skip_stretch hostOps4_6; skip_stretch hostOps4_5; skip_stretch hostOps4_4; skip_stretch hostOps4_3; skip_stretch hostOps4_2; skip_stretch hostOps4_1; skip_stretch hostOps4
  rfl

end Host

end Cert.KernelIdeal.HostTail

end
-- ==== Proof.Chain.lean ====
/-
  The kernel program's three results, as stages of the reference.

  The program is a fold through eighteen segments: stretches of host operations and four regions. Read at the
  buffers the results depend on, the fold says: the stretches before region 0 build the edge lists with self-loops
  appended and the symmetric degree normalisation; region 0 multiplies the features by the first layer's weights;
  the next stretch gathers, scales and scatter-adds the rows along the edges; region 1 adds the bias and clamps at
  zero; region 2 multiplies by the second layer's weights; a stretch aggregates again; region 3 adds the bias,
  normalises every row twice and applies the class head; the last stretches compute the reconstruction loss from the
  representation. Each of these is the same operation the reference applies at the same place, so every buffer on
  the way holds a stage of the reference — a function of the arguments' launch contents — and so do the results.
-/
import proofs.«159260_j58506044506633_2_alg».proof.Proof.Gen.KernelIdeal.Frame
import proofs.«159260_j58506044506633_2_alg».proof.Proof.Spec
import proofs.«159260_j58506044506633_2_alg».proof.Proof.RefRead
import proofs.«159260_j58506044506633_2_alg».proof.Proof.RegionMM
import proofs.«159260_j58506044506633_2_alg».proof.Proof.RegionAct
import proofs.«159260_j58506044506633_2_alg».proof.Proof.HostK
import proofs.«159260_j58506044506633_2_alg».proof.Proof.HostTail

set_option maxRecDepth 16384

noncomputable section

namespace Cert.KernelIdeal.Chain
open Idealize.ShloMosaic Idealize.ShloMosaic.TcCoe Idealize.SL.Sem
open Cert.KernelIdeal Cert.KernelIdeal.Gen
open Cert.ReferenceIdeal.ReadP
open Cert.KernelIdeal.RegionMM Cert.KernelIdeal.RegionAct Cert.KernelIdeal.HostK Cert.KernelIdeal.HostTail

/-! ## The fold through the kernel program's segments, read at the buffers the results depend on

Each line below says what one buffer holds at one segment boundary, as a stage of the reference (a function of the
arguments' launch contents): a stretch of host operations carries stage values to stage values, a region's output
array is the stage its block-by-block computation amounts to, and a buffer nobody writes is carried along. -/

/-- No operation of a stretch writes the buffer: each operation writes one buffer, and none of them is this one. -/
macro "host_nw " ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

/-- A buffer none of the first three stretches writes holds its launch contents when region 0 is entered. -/
theorem keep_pre (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 m ρ c (Proc.devRef .tc b) = m ((c : Thread nD τ).loc b) :=
  (StableHlo.after_of_forall_not_mem _ _ h2).trans ((StableHlo.after_of_forall_not_mem _ _ h1).trans
    ((StableHlo.after_of_forall_not_mem _ _ h0).trans rfl))

/-! ### The arguments at region 0's entry -/
theorem arg0_at3 : W3 m ρ c (Proc.devRef .tc main_arg0) = (m ((c : Thread nD τ).loc main_arg0)) := keep_pre m ρ c main_arg0 (by host_nw hostOps0) (by host_nw hostOps0_1) (by host_nw hostOps0_2)
theorem arg1_at3 : W3 m ρ c (Proc.devRef .tc main_arg1) = (m ((c : Thread nD τ).loc main_arg1)) := keep_pre m ρ c main_arg1 (by host_nw hostOps0) (by host_nw hostOps0_1) (by host_nw hostOps0_2)
theorem arg2_at3 : W3 m ρ c (Proc.devRef .tc main_arg2) = (m ((c : Thread nD τ).loc main_arg2)) := keep_pre m ρ c main_arg2 (by host_nw hostOps0) (by host_nw hostOps0_1) (by host_nw hostOps0_2)
theorem arg3_at3 : W3 m ρ c (Proc.devRef .tc main_arg3) = (m ((c : Thread nD τ).loc main_arg3)) := keep_pre m ρ c main_arg3 (by host_nw hostOps0) (by host_nw hostOps0_1) (by host_nw hostOps0_2)
theorem arg4_at3 : W3 m ρ c (Proc.devRef .tc main_arg4) = (m ((c : Thread nD τ).loc main_arg4)) := keep_pre m ρ c main_arg4 (by host_nw hostOps0) (by host_nw hostOps0_1) (by host_nw hostOps0_2)
theorem arg5_at3 : W3 m ρ c (Proc.devRef .tc main_arg5) = (m ((c : Thread nD τ).loc main_arg5)) := keep_pre m ρ c main_arg5 (by host_nw hostOps0) (by host_nw hostOps0_1) (by host_nw hostOps0_2)
theorem arg6_at3 : W3 m ρ c (Proc.devRef .tc main_arg6) = (m ((c : Thread nD τ).loc main_arg6)) := keep_pre m ρ c main_arg6 (by host_nw hostOps0) (by host_nw hostOps0_1) (by host_nw hostOps0_2)
theorem arg7_at3 : W3 m ρ c (Proc.devRef .tc main_arg7) = (m ((c : Thread nD τ).loc main_arg7)) := keep_pre m ρ c main_arg7 (by host_nw hostOps0) (by host_nw hostOps0_1) (by host_nw hostOps0_2)

/-! ### What the stretches before region 0 leave -/
theorem v10_at3 : W3 m ρ c (Proc.devRef .tc main_v10) = val_main_v7 (F := Ideal) (m ((c : Thread nD τ).loc main_arg8)) := pre_v10 (W0 m ρ c) _ rfl
theorem v11_at3 : W3 m ρ c (Proc.devRef .tc main_v11) = val_main_v8 (F := Ideal) (m ((c : Thread nD τ).loc main_arg8)) := pre_v11 (W0 m ρ c) _ rfl
theorem v36_at3 : W3 m ρ c (Proc.devRef .tc main_v36) = val_main_v33 (F := Ideal) (m ((c : Thread nD τ).loc main_arg8)) := pre_v36 (W0 m ρ c) _ rfl
theorem v1_at3 : W3 m ρ c (Proc.devRef .tc main_v1) = val_main_v1 (F := Ideal) (m ((c : Thread nD τ).loc main_arg8)) := pre_v1 (W0 m ρ c) _ rfl
theorem v3_at3 : W3 m ρ c (Proc.devRef .tc main_v3) = val_main_v3 (F := Ideal) (m ((c : Thread nD τ).loc main_arg8)) := pre_v3 (W0 m ρ c) _ rfl
theorem v5_at3 : W3 m ρ c (Proc.devRef .tc main_v5) = val_main_v111 (F := Ideal) (m ((c : Thread nD τ).loc main_arg9)) := pre_v5 (W0 m ρ c) _ rfl
theorem v7_at3 : W3 m ρ c (Proc.devRef .tc main_v7) = val_main_v113 (F := Ideal) (m ((c : Thread nD τ).loc main_arg9)) := pre_v7 (W0 m ρ c) _ rfl

/-! ### Region 0: the first layer's product -/
theorem v37_at4 : W4 m ρ c (Proc.devRef .tc main_v37) = val_main_v5 (F := Ideal) (m ((c : Thread nD τ).loc main_arg0)) (m ((c : Thread nD τ).loc main_arg2)) := by
  have r := region0_val (V3 m ρ) c
  rw [show V3 m ρ c main_arg0 = (m ((c : Thread nD τ).loc main_arg0)) from arg0_at3 m ρ c, show V3 m ρ c main_arg2 = (m ((c : Thread nD τ).loc main_arg2)) from arg2_at3 m ρ c] at r
  exact (W4_arr m ρ c 2).trans r

/-! ### The aggregation before region 1, and region 1: bias and activation -/
theorem v50_at5 : W5 m ρ c (Proc.devRef .tc main_v50) = val_main_v46 (F := Ideal) (m ((c : Thread nD τ).loc main_arg0)) (m ((c : Thread nD τ).loc main_arg2)) (m ((c : Thread nD τ).loc main_arg8)) :=
  s1_v50 (W4 m ρ c) _ _ _ (v37_at4 m ρ c) ((W4_of_ne m ρ c main_v10 (by decide)).trans (v10_at3 m ρ c)) ((W4_of_ne m ρ c main_v11 (by decide)).trans (v11_at3 m ρ c)) ((W4_of_ne m ρ c main_v36 (by decide)).trans (v36_at3 m ρ c))
theorem v51_at5 : W5 m ρ c (Proc.devRef .tc main_v51) = shapeCast S1x64 (m ((c : Thread nD τ).loc main_arg3)) shapeCasts_S64_S1x64 :=
  s1_v51 (W4 m ρ c) _ ((W4_of_ne m ρ c main_arg3 (by decide)).trans (arg3_at3 m ρ c))
theorem v52_at6 : W6 m ρ c (Proc.devRef .tc main_v52) = val_main_v50 (F := Ideal) (m ((c : Thread nD τ).loc main_arg0)) (m ((c : Thread nD τ).loc main_arg2)) (m ((c : Thread nD τ).loc main_arg3)) (m ((c : Thread nD τ).loc main_arg8)) := by
  have r := region1_val (V5 m ρ) c (m ((c : Thread nD τ).loc main_arg3)) (v51_at5 m ρ c)
  rw [show V5 m ρ c main_v50 = _ from v50_at5 m ρ c] at r
  exact (W6_arr m ρ c 2).trans r

/-! ### Region 2: the second layer's product -/
theorem v53_at7 : W7 m ρ c (Proc.devRef .tc main_v53) = val_main_v51 (F := Ideal) (m ((c : Thread nD τ).loc main_arg0)) (m ((c : Thread nD τ).loc main_arg2)) (m ((c : Thread nD τ).loc main_arg3)) (m ((c : Thread nD τ).loc main_arg4)) (m ((c : Thread nD τ).loc main_arg8)) := by
  have r := region2_val (V6 m ρ) c
  rw [show V6 m ρ c main_v52 = _ from v52_at6 m ρ c,
    show V6 m ρ c main_arg4 = (m ((c : Thread nD τ).loc main_arg4)) from ((W6_of_ne m ρ c main_arg4 (by decide)).trans (((StableHlo.after_of_forall_not_mem (b := (Proc.devRef .tc main_arg4)) _ _ (by host_nw hostOps1)).trans (((W4_of_ne m ρ c main_arg4 (by decide)).trans (arg4_at3 m ρ c))))))] at r
  exact (W7_arr m ρ c 2).trans r

/-! ### The aggregation before region 3 -/
theorem v10_at7 : W7 m ρ c (Proc.devRef .tc main_v10) = val_main_v7 (F := Ideal) (m ((c : Thread nD τ).loc main_arg8)) :=
  ((W7_of_ne m ρ c main_v10 (by decide)).trans (((W6_of_ne m ρ c main_v10 (by decide)).trans (((StableHlo.after_of_forall_not_mem (b := (Proc.devRef .tc main_v10)) _ _ (by host_nw hostOps1)).trans (((W4_of_ne m ρ c main_v10 (by decide)).trans (v10_at3 m ρ c))))))))
theorem v11_at7 : W7 m ρ c (Proc.devRef .tc main_v11) = val_main_v8 (F := Ideal) (m ((c : Thread nD τ).loc main_arg8)) :=
  ((W7_of_ne m ρ c main_v11 (by decide)).trans (((W6_of_ne m ρ c main_v11 (by decide)).trans (((StableHlo.after_of_forall_not_mem (b := (Proc.devRef .tc main_v11)) _ _ (by host_nw hostOps1)).trans (((W4_of_ne m ρ c main_v11 (by decide)).trans (v11_at3 m ρ c))))))))
theorem v36_at7 : W7 m ρ c (Proc.devRef .tc main_v36) = val_main_v33 (F := Ideal) (m ((c : Thread nD τ).loc main_arg8)) :=
  ((W7_of_ne m ρ c main_v36 (by decide)).trans (((W6_of_ne m ρ c main_v36 (by decide)).trans (((StableHlo.after_of_forall_not_mem (b := (Proc.devRef .tc main_v36)) _ _ (by host_nw hostOps1)).trans (((W4_of_ne m ρ c main_v36 (by decide)).trans (v36_at3 m ρ c))))))))
theorem v66_at8 : W8 m ρ c (Proc.devRef .tc main_v66) = val_main_v92 (F := Ideal) (m ((c : Thread nD τ).loc main_arg0)) (m ((c : Thread nD τ).loc main_arg2)) (m ((c : Thread nD τ).loc main_arg3)) (m ((c : Thread nD τ).loc main_arg4)) (m ((c : Thread nD τ).loc main_arg8)) :=
  s3_v66 (W7 m ρ c) _ _ _ _ _ (v53_at7 m ρ c) (v10_at7 m ρ c) (v11_at7 m ρ c) (v36_at7 m ρ c)
theorem v67_at8 : W8 m ρ c (Proc.devRef .tc main_v67) = shapeCast S1x64 (m ((c : Thread nD τ).loc main_arg5)) shapeCasts_S64_S1x64 :=
  s3_v67 (W7 m ρ c) _ ((W7_of_ne m ρ c main_arg5 (by decide)).trans (((W6_of_ne m ρ c main_arg5 (by decide)).trans (((StableHlo.after_of_forall_not_mem (b := (Proc.devRef .tc main_arg5)) _ _ (by host_nw hostOps1)).trans (((W4_of_ne m ρ c main_arg5 (by decide)).trans (arg5_at3 m ρ c))))))))
theorem v68_at8 : W8 m ρ c (Proc.devRef .tc main_v68) = shapeCast S1x16 (m ((c : Thread nD τ).loc main_arg7)) shapeCasts_S16_S1x16 :=
  s3_v68 (W7 m ρ c) _ ((W7_of_ne m ρ c main_arg7 (by decide)).trans (((W6_of_ne m ρ c main_arg7 (by decide)).trans (((StableHlo.after_of_forall_not_mem (b := (Proc.devRef .tc main_arg7)) _ _ (by host_nw hostOps1)).trans (((W4_of_ne m ρ c main_arg7 (by decide)).trans (arg7_at3 m ρ c))))))))
theorem arg6_at8 : W8 m ρ c (Proc.devRef .tc main_arg6) = (m ((c : Thread nD τ).loc main_arg6)) :=
  ((StableHlo.after_of_forall_not_mem (b := (Proc.devRef .tc main_arg6)) _ _ (by host_nw hostOps3)).trans (((W7_of_ne m ρ c main_arg6 (by decide)).trans (((W6_of_ne m ρ c main_arg6 (by decide)).trans (((StableHlo.after_of_forall_not_mem (b := (Proc.devRef .tc main_arg6)) _ _ (by host_nw hostOps1)).trans (((W4_of_ne m ρ c main_arg6 (by decide)).trans (arg6_at3 m ρ c))))))))))

/-! ### Region 3: bias, the two normalisations and the class head -/
theorem rep_at9 : W9 m ρ c (Proc.devRef .tc main_v69_0) = val_main_v105 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) := by
  have r := region3_rep (V8 m ρ) c (m ((c : Thread nD τ).loc main_arg5)) (v67_at8 m ρ c)
  rw [show V8 m ρ c main_v66 = _ from v66_at8 m ρ c] at r
  exact (W9_arr m ρ c 4).trans r
theorem y_at9 : W9 m ρ c (Proc.devRef .tc main_v69_1) = val_main_v109 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have r := region3_y (V8 m ρ) c (m ((c : Thread nD τ).loc main_arg5)) (m ((c : Thread nD τ).loc main_arg7)) (v67_at8 m ρ c) (v68_at8 m ρ c)
  rw [show V8 m ρ c main_v66 = _ from v66_at8 m ρ c, show V8 m ρ c main_arg6 = (m ((c : Thread nD τ).loc main_arg6)) from arg6_at8 m ρ c] at r
  exact (W9_arr m ρ c 5).trans r

/-! ### The loss: the stretches after region 3 -/
theorem arg1_at9 : W9 m ρ c (Proc.devRef .tc main_arg1) = (m ((c : Thread nD τ).loc main_arg1)) := ((W9_of_ne m ρ c main_arg1 (by decide)).trans (((StableHlo.after_of_forall_not_mem (b := (Proc.devRef .tc main_arg1)) _ _ (by host_nw hostOps3)).trans (((W7_of_ne m ρ c main_arg1 (by decide)).trans (((W6_of_ne m ρ c main_arg1 (by decide)).trans (((StableHlo.after_of_forall_not_mem (b := (Proc.devRef .tc main_arg1)) _ _ (by host_nw hostOps1)).trans (((W4_of_ne m ρ c main_arg1 (by decide)).trans (arg1_at3 m ρ c))))))))))))
theorem v1_at9 : W9 m ρ c (Proc.devRef .tc main_v1) = val_main_v1 (F := Ideal) (m ((c : Thread nD τ).loc main_arg8)) := ((W9_of_ne m ρ c main_v1 (by decide)).trans (((StableHlo.after_of_forall_not_mem (b := (Proc.devRef .tc main_v1)) _ _ (by host_nw hostOps3)).trans (((W7_of_ne m ρ c main_v1 (by decide)).trans (((W6_of_ne m ρ c main_v1 (by decide)).trans (((StableHlo.after_of_forall_not_mem (b := (Proc.devRef .tc main_v1)) _ _ (by host_nw hostOps1)).trans (((W4_of_ne m ρ c main_v1 (by decide)).trans (v1_at3 m ρ c))))))))))))
theorem v3_at9 : W9 m ρ c (Proc.devRef .tc main_v3) = val_main_v3 (F := Ideal) (m ((c : Thread nD τ).loc main_arg8)) := ((W9_of_ne m ρ c main_v3 (by decide)).trans (((StableHlo.after_of_forall_not_mem (b := (Proc.devRef .tc main_v3)) _ _ (by host_nw hostOps3)).trans (((W7_of_ne m ρ c main_v3 (by decide)).trans (((W6_of_ne m ρ c main_v3 (by decide)).trans (((StableHlo.after_of_forall_not_mem (b := (Proc.devRef .tc main_v3)) _ _ (by host_nw hostOps1)).trans (((W4_of_ne m ρ c main_v3 (by decide)).trans (v3_at3 m ρ c))))))))))))
theorem v5_at9 : W9 m ρ c (Proc.devRef .tc main_v5) = val_main_v111 (F := Ideal) (m ((c : Thread nD τ).loc main_arg9)) := ((W9_of_ne m ρ c main_v5 (by decide)).trans (((StableHlo.after_of_forall_not_mem (b := (Proc.devRef .tc main_v5)) _ _ (by host_nw hostOps3)).trans (((W7_of_ne m ρ c main_v5 (by decide)).trans (((W6_of_ne m ρ c main_v5 (by decide)).trans (((StableHlo.after_of_forall_not_mem (b := (Proc.devRef .tc main_v5)) _ _ (by host_nw hostOps1)).trans (((W4_of_ne m ρ c main_v5 (by decide)).trans (v5_at3 m ρ c))))))))))))
theorem v7_at9 : W9 m ρ c (Proc.devRef .tc main_v7) = val_main_v113 (F := Ideal) (m ((c : Thread nD τ).loc main_arg9)) := ((W9_of_ne m ρ c main_v7 (by decide)).trans (((StableHlo.after_of_forall_not_mem (b := (Proc.devRef .tc main_v7)) _ _ (by host_nw hostOps3)).trans (((W7_of_ne m ρ c main_v7 (by decide)).trans (((W6_of_ne m ρ c main_v7 (by decide)).trans (((StableHlo.after_of_forall_not_mem (b := (Proc.devRef .tc main_v7)) _ _ (by host_nw hostOps1)).trans (((W4_of_ne m ρ c main_v7 (by decide)).trans (v7_at3 m ρ c))))))))))))

/-- The representation at the return. -/
theorem rep_final : W18 m ρ c (Proc.devRef .tc main_v69_0) = val_main_v105 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) :=
  (tail_rep (W9 m ρ c)).trans (rep_at9 m ρ c)
/-- The class scores at the return. -/
theorem y_final : W18 m ρ c (Proc.devRef .tc main_v69_1) = val_main_v109 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (tail_y (W9 m ρ c)).trans (y_at9 m ρ c)
/-- The reconstruction loss at the return. -/
theorem loss_final : W18 m ρ c (Proc.devRef .tc main_v143) = val_main_v187 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) :=
  tail_loss (W9 m ρ c) _ _ _ _ _ _ _ _ (rep_at9 m ρ c) (arg1_at9 m ρ c) (v1_at9 m ρ c) (v3_at9 m ρ c) (v5_at9 m ρ c) (v7_at9 m ρ c)

end Cert.KernelIdeal.Chain

end
-- ==== Proof.lean ====
/-
  The certificate for the two-layer graph-convolution kernel against its jnp reference.

  Five claims. The two kernel programs (word-level and idealized) run and leave their arguments as launched: the
  generated frame certificates. The idealization rewrote nothing, so there is nothing to preserve. The reference runs:
  its run, read one operation at a time. And the idealized kernel and the idealized reference, from memories that agree
  on the arguments, end with the same three results as extended reals: the normalised representation, the
  reconstruction loss and the class scores.

  The last claim is where the mathematics is. The kernel program interleaves four regions with stretches of host
  operations; the reference applies the same operations in the same order, all on the host. Read at the ideal values
  a region's block-by-block computation is one whole-array operation — a matrix product computed ten row blocks at
  a time is the whole product, a bias added and rows normalised block by block are the whole array's rows normalised
  — because each output entry is the same finite sum, or the same quotient by a root of a finite sum, on either
  reading. So every buffer along the kernel program's run holds a stage of the reference, a function of the arguments
  (Proof/Chain.lean), and so do the three results; the reference's run ends at the same stages of its own arguments
  (Proof/RefRun.lean), which agree. No finiteness of the inputs is used: no law beyond "the same expression" joins the
  two sides, so the precondition is never opened.
-/
import proofs.«159260_j58506044506633_2_alg».proof.Defs
import proofs.«159260_j58506044506633_2_alg».proof.Proof.Gen.Kernel
import proofs.«159260_j58506044506633_2_alg».proof.Proof.Gen.Kernel.Skeleton
import proofs.«159260_j58506044506633_2_alg».proof.Proof.Gen.Kernel.Launch
import proofs.«159260_j58506044506633_2_alg».proof.Proof.Gen.Kernel.Points
import proofs.«159260_j58506044506633_2_alg».proof.Proof.Gen.Kernel.Frame
import proofs.«159260_j58506044506633_2_alg».proof.Proof.Gen.KernelIdeal
import proofs.«159260_j58506044506633_2_alg».proof.Proof.Gen.KernelIdeal.Skeleton
import proofs.«159260_j58506044506633_2_alg».proof.Proof.Gen.KernelIdeal.Launch
import proofs.«159260_j58506044506633_2_alg».proof.Proof.Gen.KernelIdeal.Points
import proofs.«159260_j58506044506633_2_alg».proof.Proof.Gen.KernelIdeal.Frame
import proofs.«159260_j58506044506633_2_alg».proof.Proof.Gen.ReferenceIdeal
import proofs.«159260_j58506044506633_2_alg».proof.Proof.Gen.Pre_finite_inputs
import proofs.«159260_j58506044506633_2_alg».proof.Proof.KRun
import proofs.«159260_j58506044506633_2_alg».proof.Proof.RefRun
import proofs.«159260_j58506044506633_2_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the generated frame certificate. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and leaves its arguments as launched: the generated frame certificate. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: its run, with the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.ValueP.run (F := Ideal) m ρ)

/-- The idealization rewrote no operation, so there is nothing to preserve. -/
theorem preserves : Cert.preserves_Kernel_KernelIdeal := trivial

/-- From memories agreeing on the arguments both idealized programs run, and end with the same representation, the
    same loss and the same class scores: each result of the kernel program is the fold's value at its buffer, which
    is the reference's stage of the kernel's arguments (the chain through the segments), and the reference's result
    is the same stage of its own arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W18 m ρ c (Proc.devRef .tc Cert.KernelIdeal.main_v69_0),
    fun c => Cert.KernelIdeal.Gen.W18 m ρ c (Proc.devRef .tc Cert.KernelIdeal.main_v143),
    fun c => Cert.KernelIdeal.Gen.W18 m ρ c (Proc.devRef .tc Cert.KernelIdeal.main_v69_1),
    Cert.KernelIdeal.KRun.run_vals m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.ValueP.run (F := Ideal) m' ρ')
  · obtain ⟨e0, e1, e2, e3, e4, e5, e6, e7, e8, e9⟩ := hagree c
    rw [e0, e2, e3, e4, e5, e8]
    exact (Cert.KernelIdeal.Chain.rep_final m ρ c).symm
  · obtain ⟨e0, e1, e2, e3, e4, e5, e6, e7, e8, e9⟩ := hagree c
    rw [e0, e1, e2, e3, e4, e5, e8, e9]
    exact (Cert.KernelIdeal.Chain.loss_final m ρ c).symm
  · obtain ⟨e0, e1, e2, e3, e4, e5, e6, e7, e8, e9⟩ := hagree c
    rw [e0, e2, e3, e4, e5, e6, e7, e8]
    exact (Cert.KernelIdeal.Chain.y_final m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
